-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2x65536 : Shape := ⟨2, ![2, 65536]⟩
abbrev S65536 : Shape := ⟨1, ![65536]⟩
abbrev S4096x200 : Shape := ⟨2, ![4096, 200]⟩
abbrev S200 : Shape := ⟨1, ![200]⟩
abbrev S200x4096 : Shape := ⟨2, ![200, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S65536 : S_.BroadcastsInDim S65536 (![] : Fin 0 → Fin S65536.rank)
  reducesTo_S65536_S_d0 : S65536.ReducesTo [0] S_
  bcast_S_S4096x200 : S_.BroadcastsInDim S4096x200 (![] : Fin 0 → Fin S4096x200.rank)
  reducesTo_S4096x200_S_d0_1 : S4096x200.ReducesTo [0, 1] S_
  bcast_S_S200 : S_.BroadcastsInDim S200 (![] : Fin 0 → Fin S200.rank)
  reducesTo_S200_S_d0 : S200.ReducesTo [0] S_
  bcast_S_S200x4096 : S_.BroadcastsInDim S200x4096 (![] : Fin 0 → Fin S200x4096.rank)
  reducesTo_S200x4096_S_d0_1 : S200x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x200 .f32) (main_arg6 : FVec F S200x4096 .f32) (main_arg7 : FVec F S4096 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S4096x200 .f32 := Host.absf main_arg5
  let main_cst_6 : FVec F S_ .f32 := constant S_ .f32 0x7F800000#32
  let main_v20 : FVec F S4096x200 .f32 := broadcastInDim S4096x200 ![] bcast_S_S4096x200 main_cst_6
  let main_v21 : IVec S4096x200 1 := cmpf .olt main_v19 main_v20
  let main_c_7 : IVec S_ 1 := constantI S_ 1 1#1
  let main_v22 : IVec S_ 1 := (fun x v => Host.reduce IntOp.andi x v reducesTo_S4096x200_S_d0_1 h_S_) main_v21 main_c_7
  let main_v23 : IVec S_ 1 := andi main_v18 main_v22
  let main_v24 : FVec F S200x4096 .f32 := Host.absf main_arg6
  let main_cst_8 : FVec F S_ .f32 := constant S_ .f32 0x7F800000#32
  let main_v25 : FVec F S200x4096 .f32 := broadcastInDim S200x4096 ![] bcast_S_S200x4096 main_cst_8
  let main_v26 : IVec S200x4096 1 := cmpf .olt main_v24 main_v25
  let main_c_9 : IVec S_ 1 := constantI S_ 1 1#1
  let main_v27 : IVec S_ 1 := (fun x v => Host.reduce IntOp.andi x v reducesTo_S200x4096_S_d0_1 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : IVec S2x65536 32) (main_arg2 : FVec F S65536 .f32) (main_arg3 : FVec F S4096x200 .f32) (main_arg4 : FVec F S200 .f32) (main_arg5 : FVec F S4096x200 .f32) (main_arg6 : FVec F S200x4096 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S65536 .f32 := Host.absf main_arg2
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4096x200 .f32 := Host.absf main_arg3
  let main_cst_2 : FVec F S_ .f32 := constant S_ .f32 0x7F800000#32
  let main_v10 : FVec F S4096x200 .f32 := broadcastInDim S4096x200 ![] bcast_S_S4096x200 main_cst_2
  let main_v11 : IVec S4096x200 1 := cmpf .olt main_v9 main_v10
  let main_c_3 : IVec S_ 1 := constantI S_ 1 1#1
  let main_v12 : IVec S_ 1 := (fun x v => Host.reduce IntOp.andi x v reducesTo_S4096x200_S_d0_1 h_S_) main_v11 main_c_3
  let main_v13 : IVec S_ 1 := andi main_v8 main_v12
  let main_v14 : FVec F S200 .f32 := Host.absf main_arg4
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg5 main_arg6 main_arg7 main_v13 main_v16
-- ==== Kernel.lean ====
abbrev S4096x4096 : Shape := ⟨2, ![4096, 4096]⟩
abbrev S2x65536 : Shape := ⟨2, ![2, 65536]⟩
abbrev S65536 : Shape := ⟨1, ![65536]⟩
abbrev S4096x200 : Shape := ⟨2, ![4096, 200]⟩
abbrev S200 : Shape := ⟨1, ![200]⟩
abbrev S200x4096 : Shape := ⟨2, ![200, 4096]⟩
abbrev S4096 : Shape := ⟨1, ![4096]⟩
abbrev S_ : Shape := ⟨0, ![]⟩
abbrev S4096x256 : Shape := ⟨2, ![4096, 256]⟩
abbrev S4096x512 : Shape := ⟨2, ![4096, 512]⟩
abbrev S512x512 : Shape := ⟨2, ![512, 512]⟩
abbrev S1x65536 : Shape := ⟨2, ![1, 65536]⟩
abbrev S65536x1 : Shape := ⟨2, ![65536, 1]⟩
abbrev S65536x200 : Shape := ⟨2, ![65536, 200]⟩
abbrev S1x200 : Shape := ⟨2, ![1, 200]⟩
abbrev S256x4096 : Shape := ⟨2, ![256, 4096]⟩
abbrev S1x4096 : Shape := ⟨2, ![1, 4096]⟩
abbrev S512x256 : Shape := ⟨2, ![512, 256]⟩
abbrev S256x512 : Shape := ⟨2, ![256, 512]⟩
abbrev S1x512 : Shape := ⟨2, ![1, 512]⟩

abbrev nBuf : Space → Nat
  | .hbm => 53
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S2x65536, .i32⟩
  | .hbm, ⟨2, _⟩ => ⟨S65536, .f32⟩
  | .hbm, ⟨3, _⟩ => ⟨S4096x200, .f32⟩
  | .hbm, ⟨4, _⟩ => ⟨S200, .f32⟩
  | .hbm, ⟨5, _⟩ => ⟨S4096x200, .f32⟩
  | .hbm, ⟨6, _⟩ => ⟨S200x4096, .f32⟩
  | .hbm, ⟨7, _⟩ => ⟨S4096, .f32⟩
  | .hbm, ⟨8, _⟩ => ⟨S_, .i32⟩
  | .hbm, ⟨9, _⟩ => ⟨S_, .f32⟩
  | .hbm, ⟨10, _⟩ => ⟨S4096x256, .f32⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S4096x512, .f32⟩
  | .hbm, ⟨15, _⟩ => ⟨S4096x512, .f32⟩
  | .hbm, ⟨16, _⟩ => ⟨S4096x200, .f32⟩
  | .hbm, ⟨17, _⟩ => ⟨S4096x200, .f32⟩
  | .hbm, ⟨18, _⟩ => ⟨S1x65536, .i32⟩
  | .hbm, ⟨19, _⟩ => ⟨S65536, .i32⟩
  | .hbm, ⟨20, _⟩ => ⟨S1x65536, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x200, .f32⟩
  | .hbm, ⟨31, _⟩ => ⟨S65536x1, .f32⟩
  | .hbm, ⟨32, _⟩ => ⟨S65536x200, .f32⟩
  | .hbm, ⟨33, _⟩ => ⟨S65536x200, .f32⟩
  | .hbm, ⟨34, _⟩ => ⟨S_, .f32⟩
  | .hbm, ⟨35, _⟩ => ⟨S4096x200, .f32⟩
  | .hbm, ⟨36, _⟩ => ⟨S65536x1, .i32⟩
  | .hbm, ⟨37, _⟩ => ⟨S4096x200, .f32⟩
  | .hbm, ⟨38, _⟩ => ⟨S1x200, .f32⟩
  | .hbm, ⟨39, _⟩ => ⟨S4096x200, .f32⟩
  | .hbm, ⟨40, _⟩ => ⟨S4096x200, .f32⟩
  | .hbm, ⟨41, _⟩ => ⟨S4096x200, .f32⟩
  | .hbm, ⟨42, _⟩ => ⟨S_, .f32⟩
  | .hbm, ⟨43, _⟩ => ⟨S4096x200, .f32⟩
  | .hbm, ⟨44, _⟩ => ⟨S4096x200, .f32⟩
  | .hbm, ⟨45, _⟩ => ⟨S_, .i32⟩
  | .hbm, ⟨46, _⟩ => ⟨S_, .f32⟩
  | .hbm, ⟨47, _⟩ => ⟨S4096x256, .f32⟩
  | .hbm, ⟨48, _⟩ => ⟨S_, .i32⟩
  | .hbm, ⟨49, _⟩ => ⟨S_, .f32⟩
  | .hbm, ⟨50, _⟩ => ⟨S256x4096, .f32⟩
  | .hbm, ⟨51, _⟩ => ⟨S1x4096, .f32⟩
  | .hbm, ⟨52, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_cst : Ref sig .tc := ⟨.hbm, 42, rfl⟩
abbrev main_call2_v0 : Ref sig .tc := ⟨.hbm, 43, rfl⟩
abbrev main_v27 : Ref sig .tc := ⟨.hbm, 44, rfl⟩
abbrev main_c_3 : Ref sig .tc := ⟨.hbm, 45, rfl⟩
abbrev main_call3_v0 : Ref sig .tc := ⟨.hbm, 46, rfl⟩
abbrev main_v28 : Ref sig .tc := ⟨.hbm, 47, rfl⟩
abbrev main_c_4 : Ref sig .tc := ⟨.hbm, 48, rfl⟩
abbrev main_call4_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S4096x200_S4096x256_000_0560 : S4096x200.Pads (![0, 0] : Fin 2 → Nat) ![0, 56] ![0, 0] S4096x256
  h_S_ : 0 < S_.numel
  concatenates_S4096x256_S4096x256_S4096x512_d1 : Shape.Concatenates [S4096x256, S4096x256] S4096x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  slices_S4096x512_S4096x200_0_0 : S4096x512.Slices ![0, 0] S4096x200
  slices_S4096x512_S4096x200_0_256 : S4096x512.Slices ![0, 256] S4096x200
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x200_0_1 : S65536x1.BroadcastsInDim S65536x200 (![0, 1] : Fin 2 → Fin S65536x200.rank)
  bcast_S_S4096x200 : S_.BroadcastsInDim S4096x200 (![] : Fin 0 → Fin S4096x200.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  pads_S200x4096_S256x4096_0560_000 : S200x4096.Pads (![0, 0] : Fin 2 → Nat) ![56, 0] ![0, 0] S256x4096
  shapeCasts_S4096_S1x4096 : S4096.ShapeCasts S1x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  gather_S4096x200_S65536x1_S65536x200_1_0_n_n_0_1_1200_wf : GatherDims.WF S4096x200 S65536x1 S65536x200 [1] [0] [] [0] [] 1 ![1, 200]
  scatter_S4096x200_S65536x1_S65536x200_1_0_0_1_wf : ScatterDims.WF S4096x200 S65536x1 S65536x200 [1] [0] [0] 1
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x4096.size a
  hwx1_1 : ∀ i : grid1.Coords, EltTy.bits .f32 = 32 ∨ (Rect.block (s := S256x4096) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def gather_S4096x200_S65536x1_S65536x200_1_0_n_n_0_1_1200 : GatherDims S4096x200 S65536x1 S65536x200 where
  offsetDims := [1]
  collapsedSliceDims := [0]
  operandBatchingDims := []
  startIndicesBatchingDims := []
  startIndexMap := [0]
  indexVectorDim := 1
  sliceSizes := ![1, 200]
  wf := gather_S4096x200_S65536x1_S65536x200_1_0_n_n_0_1_1200_wf
def scatter_S4096x200_S65536x1_S65536x200_1_0_0_1 : ScatterDims S4096x200 S65536x1 S65536x200 where
  updateWindowDims := [1]
  insertedWindowDims := [0]
  scatterDimsToOperandDims := [0]
  indexVectorDim := 1
  wf := scatter_S4096x200_S65536x1_S65536x200_1_0_0_1_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v28) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S2x65536 : Shape := ⟨2, ![2, 65536]⟩
abbrev S65536 : Shape := ⟨1, ![65536]⟩
abbrev S4096x200 : Shape := ⟨2, ![4096, 200]⟩
abbrev S200 : Shape := ⟨1, ![200]⟩
abbrev S200x4096 : Shape := ⟨2, ![200, 4096]⟩
abbrev S4096 : Shape := ⟨1, ![4096]⟩
abbrev S1x65536 : Shape := ⟨2, ![1, 65536]⟩
abbrev S_ : Shape := ⟨0, ![]⟩
abbrev S65536x1 : Shape := ⟨2, ![65536, 1]⟩
abbrev S65536x200 : Shape := ⟨2, ![65536, 200]⟩
abbrev S1x200 : Shape := ⟨2, ![1, 200]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2x65536, .i32⟩
  | .hbm, ⟨2, _⟩ => ⟨S65536, .f32⟩
  | .hbm, ⟨3, _⟩ => ⟨S4096x200, .f32⟩
  | .hbm, ⟨4, _⟩ => ⟨S200, .f32⟩
  | .hbm, ⟨5, _⟩ => ⟨S4096x200, .f32⟩
  | .hbm, ⟨6, _⟩ => ⟨S200x4096, .f32⟩
  | .hbm, ⟨7, _⟩ => ⟨S4096, .f32⟩
  | .hbm, ⟨8, _⟩ => ⟨S1x65536, .i32⟩
  | .hbm, ⟨9, _⟩ => ⟨S65536, .i32⟩
  | .hbm, ⟨10, _⟩ => ⟨S1x65536, .i32⟩
  | .hbm, ⟨11, _⟩ => ⟨S65536, .i32⟩
  | .hbm, ⟨12, _⟩ => ⟨S4096x200, .f32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x200, .f32⟩
  | .hbm, ⟨22, _⟩ => ⟨S65536x1, .f32⟩
  | .hbm, ⟨23, _⟩ => ⟨S65536x200, .f32⟩
  | .hbm, ⟨24, _⟩ => ⟨S65536x200, .f32⟩
  | .hbm, ⟨25, _⟩ => ⟨S_, .f32⟩
  | .hbm, ⟨26, _⟩ => ⟨S4096x200, .f32⟩
  | .hbm, ⟨27, _⟩ => ⟨S65536x1, .i32⟩
  | .hbm, ⟨28, _⟩ => ⟨S4096x200, .f32⟩
  | .hbm, ⟨29, _⟩ => ⟨S1x200, .f32⟩
  | .hbm, ⟨30, _⟩ => ⟨S4096x200, .f32⟩
  | .hbm, ⟨31, _⟩ => ⟨S4096x200, .f32⟩
  | .hbm, ⟨32, _⟩ => ⟨S4096x200, .f32⟩
  | .hbm, ⟨33, _⟩ => ⟨S4096x200, .f32⟩
  | .hbm, ⟨34, _⟩ => ⟨S_, .f32⟩
  | .hbm, ⟨35, _⟩ => ⟨S4096x200, .f32⟩
  | .hbm, ⟨36, _⟩ => ⟨S4096x200, .f32⟩
  | .hbm, ⟨37, _⟩ => ⟨S4096x4096, .f32⟩
  | .hbm, ⟨38, _⟩ => ⟨S1x4096, .f32⟩
  | .hbm, ⟨39, _⟩ => ⟨S4096x4096, .f32⟩
  | .hbm, ⟨40, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x200_0_1 : S65536x1.BroadcastsInDim S65536x200 (![0, 1] : Fin 2 → Fin S65536x200.rank)
  bcast_S_S4096x200 : S_.BroadcastsInDim S4096x200 (![] : Fin 0 → Fin S4096x200.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x200_S4096x200_1_0_0_1_n_n_wf : DotDims.WF S4096x4096 S4096x200 S4096x200 [1] [0] [0] [1] [] []
  gather_S4096x200_S65536x1_S65536x200_1_0_n_n_0_1_1200_wf : GatherDims.WF S4096x200 S65536x1 S65536x200 [1] [0] [] [0] [] 1 ![1, 200]
  scatter_S4096x200_S65536x1_S65536x200_1_0_0_1_wf : ScatterDims.WF S4096x200 S65536x1 S65536x200 [1] [0] [0] 1
  dot_S4096x200_S200x4096_S4096x4096_1_0_0_1_n_n_wf : DotDims.WF S4096x200 S200x4096 S4096x4096 [1] [0] [0] [1] [] []

variable [Facts₀]

def dot_S4096x4096_S4096x200_S4096x200_1_0_0_1_n_n : DotDims S4096x4096 S4096x200 S4096x200 where
  lhsContracting := [1]
  rhsContracting := [0]
  lhsNonContracting := [0]
  rhsNonContracting := [1]
  lhsBatch := []
  rhsBatch := []
  wf := dot_S4096x4096_S4096x200_S4096x200_1_0_0_1_n_n_wf
def gather_S4096x200_S65536x1_S65536x200_1_0_n_n_0_1_1200 : GatherDims S4096x200 S65536x1 S65536x200 where
  offsetDims := [1]
  collapsedSliceDims := [0]
  operandBatchingDims := []
  startIndicesBatchingDims := []
  startIndexMap := [0]
  indexVectorDim := 1
  sliceSizes := ![1, 200]
  wf := gather_S4096x200_S65536x1_S65536x200_1_0_n_n_0_1_1200_wf
def scatter_S4096x200_S65536x1_S65536x200_1_0_0_1 : ScatterDims S4096x200 S65536x1 S65536x200 where
  updateWindowDims := [1]
  insertedWindowDims := [0]
  scatterDimsToOperandDims := [0]
  indexVectorDim := 1
  wf := scatter_S4096x200_S65536x1_S65536x200_1_0_0_1_wf
def dot_S4096x200_S200x4096_S4096x4096_1_0_0_1_n_n : DotDims S4096x200 S200x4096 S4096x4096 where
  lhsContracting := [1]
  rhsContracting := [0]
  lhsNonContracting := [0]
  rhsNonContracting := [1]
  lhsBatch := []
  rhsBatch := []
  wf := dot_S4096x200_S200x4096_S4096x4096_1_0_0_1_n_n_wf

class Facts : Prop extends Facts₀ where

variable [Facts]
-- ==== Proof.K.EncRuns.lean ====
/-
  The encoder's accumulating matmul, one grid point at a time. The grid is 8 row blocks by 8 steps along the
  contracted axis; point t is row block t / 8 at step t % 8. At step 0 the body first clears its accumulator
  (a scratch buffer kept from point to point), at every step it adds the product of the point's two input
  blocks to it, and at step 7 it copies the accumulator into the output block. So the body has three control
  cases: the first step (A), a middle step (B), the last step (C). Here: the two branch conditions in closed
  form over the grid, where the output window is idle, and the body's run in each case, with the pieces its
  stores leave in the output block and in the accumulator.
-/
import proofs.«147354_j1314259992767_1_alg».proof.Proof.Gen.Kernel.Launch
import proofs.«147354_j1314259992767_1_alg».proof.Proof.Gen.Kernel.Skeleton
import proofs.«147354_j1314259992767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is step 0 of the contracted axis": the first conditional's scalar chain over the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is step 7, the last": the second conditional. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last step nothing is stored into the output block: the window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x512 .f32 := Memref.whole cc0_scratch0
abbrev VS0_0 : View sig .tc .vmem S512x512 .f32 := scM0_0.view
abbrev VO0_2 : View sig .tc .vmem S512x512 .f32 := (Memref.whole cc0_stg2_0 : Memref sig .tc .vmem S512x512 .f32).view

/-- The scoped buffers of the core that this call neither stages nor uses: the other call's staging buffers, each
    whole at some contents. They ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the body beside its windows: the accumulator at some contents, the untouched scoped
    buffers, the generator register at some state. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

/-! ## The body's run, case by case -/

set_option maxHeartbeats 1000000 in
/-- Step 0: the accumulator is cleared, then the product of the two input blocks is added; the output block is not
    touched. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨[], ?_, fun xi2 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product of the two input blocks is added to what the step before left in the accumulator. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨[], ?_, fun xi2 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product is added to the accumulator, and the accumulator is copied into the output block. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.EncData.lean ====
/-
  The encoder region's proof data: what each control case leaves in the accumulator and in the output block, what
  they hold after each grid point (a recursion on the point: at a first step the cleared accumulator plus the point's
  product, later what the point before left plus the point's product; at a last step the output block is the
  accumulator), the region invariant carrying the accumulator from point to point, and the body obligation: at
  every point the body, called on the pipeline's staging buffers, does exactly that. All of it at a parameter V,
  the buffers' contents when the region is entered.
-/
import proofs.«147354_j1314259992767_1_alg».proof.Proof.K.EncRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the accumulator tile it, so they cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) (y : S512x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x512.size (by sl_kernel_rfl) y

/-- What case A leaves in the accumulator: its pieces read back. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) : Vec F S512x512 .f32 :=
  VS0_0.read (Elt F) (VS0_0.writes (Elt F) VS0_0.junk (kernelRun0_A c i arg2 harg2 arg3 harg3 arg4 harg4 arg5 harg5 hc0 hc1 x0 x1).2.1)

/-- What case A leaves in the output block: its pieces read back (none: a placeholder nothing consults, the window being idle there). -/
def out0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) : Vec F S512x512 .f32 :=
  VO0_2.read (Elt F) (VO0_2.writes (Elt F) VO0_2.junk (kernelRun0_A c i arg2 harg2 arg3 harg3 arg4 harg4 arg5 harg5 hc0 hc1 x0 x1).1)

/-- Case B's pieces for the accumulator tile it, so they cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) (y : S512x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x512.size (by sl_kernel_rfl) y

/-- What case B leaves in the accumulator: its pieces read back. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) : Vec F S512x512 .f32 :=
  VS0_0.read (Elt F) (VS0_0.writes (Elt F) VS0_0.junk (kernelRun0_B c i arg2 harg2 arg3 harg3 arg4 harg4 arg5 harg5 hc0 hc1 x0 x1 xs0).2.1)

/-- What case B leaves in the output block: its pieces read back (none: a placeholder nothing consults, the window being idle there). -/
def out0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) : Vec F S512x512 .f32 :=
  VO0_2.read (Elt F) (VO0_2.writes (Elt F) VO0_2.junk (kernelRun0_B c i arg2 harg2 arg3 harg3 arg4 harg4 arg5 harg5 hc0 hc1 x0 x1 xs0).1)

/-- Case C's pieces for the accumulator tile it, so they cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) (y : S512x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x512.size (by sl_kernel_rfl) y

/-- What case C leaves in the accumulator: its pieces read back. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) : Vec F S512x512 .f32 :=
  VS0_0.read (Elt F) (VS0_0.writes (Elt F) VS0_0.junk (kernelRun0_C c i arg2 harg2 arg3 harg3 arg4 harg4 arg5 harg5 hc0 hc1 x0 x1 xs0).2.1)

/-- What case C leaves in the output block: its pieces read back. -/
def out0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) : Vec F S512x512 .f32 :=
  VO0_2.read (Elt F) (VO0_2.writes (Elt F) VO0_2.junk (kernelRun0_C c i arg2 harg2 arg3 harg3 arg4 harg4 arg5 harg5 hc0 hc1 x0 x1 xs0).1)

/-- Case C's pieces for the output block tile it, so they cover it. -/
theorem cover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) (y : S512x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x512.size (by sl_kernel_rfl) y

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the output block (first component) and the accumulator (second) hold after the body at position n. -/
def outsAt0 (c : Dev nD) : (n : ℕ) → n < cfg0.N → Vec F S512x512 .f32 × Vec F S512x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Hand

end
-- ==== Proof.K.EncBody.lean ====
/-
  The encoder region's body obligation: at every grid point the body, called on the pipeline's current staging
  buffers, takes the invariant before the point to the invariant after it — the accumulator handed over at what the
  point before left (anything at the very first point) and taken back at this point's contents — leaves the two
  input blocks in place, and leaves the output block written at a last step and untouched otherwise. And the two
  ends of the invariant: what the launch hands the region is the invariant before the first point; after the last
  point the accumulator's contents are forgotten again.
-/
import proofs.«147354_j1314259992767_1_alg».proof.Proof.K.EncData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ )
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ )
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ )
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HR⟩, Hg⟩
  isplitl [HS0 HR]
  · isplitl [HS0]
    · iexists _; iexact HS0
    iexact HR
  iexact Hg

end Cert.Kernel.Hand

end
-- ==== Proof.K.Dec.lean ====
/- The decoder region (pallas_call 1) at a parameter `V`, the TensorCore's buffer contents when the region is
   entered: each window's block at a point, what the body leaves in the output window's buffer as a function of the
   three input blocks, the body's triple, the pipeline's proof data and its body obligation. Generic in the float
   model. -/
import proofs.«147354_j1314259992767_1_alg».proof.Proof.Gen.Kernel.Launch
import proofs.«147354_j1314259992767_1_alg».proof.Proof.Gen.Kernel.Skeleton
import proofs.«147354_j1314259992767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the hundreds: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The decoder region at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    only where the row block changes; in between the block index has not moved), for any proof data whose array is
    `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S256x512 := Rect.unit (s := S256x512) ![0, 0] S256x512.size inb_S256x512_S256x512_0_0
abbrev r1_2 : Rect S1x512 := Rect.unit (s := S1x512) ![0, 0] S1x512.size inb_S1x512_S1x512_0_0
abbrev r1_3 : Rect S512x512 := Rect.unit (s := S512x512) ![0, 0] S512x512.size inb_S512x512_S512x512_0_0

/-! ## What the body leaves in the output window's buffer -/

/-- Window 3's staging buffer after the body, from the input windows' blocks: its one store, of the whole block. -/
def out1_3 (x0 : Vec F S512x256 .f32) (x1 : Vec F S256x512 .f32) (x2 : Vec F S1x512 .f32) : Vec F S512x512 .f32 :=
  View.canon [⟨r1_3, k1_pay1 (View.ld x0 r1_0) (View.ld x1 r1_1) (View.ld x2 r1_2)⟩]

/-- The store is of the whole buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging memrefs, the inputs' at read contents `xW` and the output's at anything, runs to
    the continuation holding the inputs' as they were and the output's at `out1_3` of the inputs' (the read of the
    output buffer before the store is of a value nothing uses). -/
theorem sound_kernel1 (c : Dev nD) (E : Set ℕ) (i : grid1.Coords) (arg0 : Memref sig .tc .vmem S512x256 .f32) (harg0 : arg0.IsWhole) (arg1 : Memref sig .tc .vmem S256x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x256 .f32) (x1 : Vec F S256x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__decoder_kernel i arg0 harg0 arg1 harg1 arg2 harg2 arg3 harg3) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the decoder's pipeline on core `c`: the arrays as the region finds them (`V`); after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The whole program's run. @main is fourteen items: five stretches of host operations (padding the two weight
  matrices and laying them side by side), the encoder region, seven stretches (the two column slices of its result,
  the gather / weight / scatter-add aggregation, bias, root term, relu, the paddings and the bias row), the decoder
  region. Between two items every buffer of the core that is no kernel's own is held whole at named contents: the
  launch memory, then each stretch's operations applied in order, and after a region its arrays at what its
  write-backs leave — the inputs as entered, the result at the region's final array. The run threads these states
  through the items; at the end every such buffer is read back: the arguments hold what they were launched with and
  the result buffer holds the decoder region's final array.
-/
import proofs.«147354_j1314259992767_1_alg».proof.Proof.K.EncBody
import proofs.«147354_j1314259992767_1_alg».proof.Proof.K.Dec
import proofs.«147354_j1314259992767_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the encoder region is entered from, read at the TensorCore's references. -/
abbrev VE0 : (c : Dev nD) → (b : Ref sig .tc) → Buf (Elt F) ((c : Thread nD τ).loc b) := fun c b => V5 m c b

/-- At the encoder region's exit: its arrays at what the pipeline leaves, every other buffer as entered. -/
def W6 (c : Dev nD) : Valuation τ sig (Elt F) :=
  Pipeline.withArrays spec0 c (V5 m c) fun w => (dat0 (VE0 m) c).arrAt w cfg0.N

/-- The regions' results, first stage: the encoder's. -/
def outsA : Outs (F := F) := fun _ r c => W6 m c (Proc.devRef .tc r)

/-- What the decoder region is entered from. -/
abbrev VE1 : (c : Dev nD) → (b : Ref sig .tc) → Buf (Elt F) ((c : Thread nD τ).loc b) := fun c b => V13 m (outsA m) c b

/-- At the decoder region's exit. -/
def W14 (c : Dev nD) : Valuation τ sig (Elt F) :=
  Pipeline.withArrays spec1 c (V13 m (outsA m) c) fun w => (dat1 (VE1 m) c).arrAt w cfg1.N

/-- The regions' results: the encoder's after item 5, the decoder's after item 13. -/
def outs : Outs (F := F) := fun J r c => if J = 14 then W14 m c (Proc.devRef .tc r) else W6 m c (Proc.devRef .tc r)

theorem outs_6 (r : Ref sig .tc) (c : Dev nD) : outs m 6 r c = W6 m c (Proc.devRef .tc r) := if_neg (by decide)
theorem outs_14 (r : Ref sig .tc) (c : Dev nD) : outs m 14 r c = W14 m c (Proc.devRef .tc r) := if_pos rfl
theorem V6_outs (c : Dev nD) : V6 m (outs m) c = V6 m (outsA m) c := by
  show Function.update (V5 m c) (Proc.devRef .tc main_v3) (outs m 6 main_v3 c) = Function.update (V5 m c) (Proc.devRef .tc main_v3) (outsA m 6 main_v3 c)
  rw [outs_6]; rfl
theorem V13_outs (c : Dev nD) : V13 m (outs m) c = V13 m (outsA m) c := by
  show StableHlo.after hostOps1_6 (StableHlo.after hostOps1_5 (StableHlo.after hostOps1_4 (StableHlo.after hostOps1_3 (StableHlo.after hostOps1_2 (StableHlo.after hostOps1_1 (StableHlo.after hostOps1 (V6 m (outs m) c))))))) = _
  rw [V6_outs]

/-- The encoder's result buffer after the region is the region's final array. -/
theorem V6_v3 (c : Dev nD) : V6 m (outs m) c main_v3 = (dat0 (VE0 m) c).arrAt 2 cfg0.N := by
  show Function.update (V5 m c) (Proc.devRef .tc main_v3) (outs m 6 main_v3 c) (Proc.devRef .tc main_v3) = _
  rw [Function.update_self, outs_6]
  unfold W6; exact Pipeline.withArrays_arr spec0 launch0.win.arr_inj c _ _ 2

/-- The program's result buffer at the end is the decoder region's final array. -/
theorem V14_v31 (c : Dev nD) : V14 m (outs m) c main_v31 = (dat1 (VE1 m) c).arrAt 3 cfg1.N := by
  show Function.update (V13 m (outs m) c) (Proc.devRef .tc main_v31) (outs m 14 main_v31 c) (Proc.devRef .tc main_v31) = _
  rw [Function.update_self, outs_14]
  unfold W14; exact Pipeline.withArrays_arr spec1 launch1.win.arr_inj c _ _ 3

theorem hF0 (c : Dev nD) (w : Fin cfg0.W) : (dat0 (VE0 m) c).arrAt w cfg0.N = V6 m (outs m) c (Pipeline.arrRef spec0 w) :=
  match w with
  | ⟨0, _⟩ => (((dat0 (VE0 m) c).arrAt_in 0 rfl _).trans (A_eq0 (VE0 m) c 0)).trans (V6_of m (outs m) c main_arg0 (by decide)).symm
  | ⟨1, _⟩ => (((dat0 (VE0 m) c).arrAt_in 1 rfl _).trans (A_eq0 (VE0 m) c 1)).trans (V6_of m (outs m) c main_v2 (by decide)).symm
  | ⟨2, _⟩ => (V6_v3 m c).symm
theorem hrest0 (c : Dev nD) : ∀ b, b ∉ Finset.univ.image (Pipeline.arrRef spec0) → V6 m (outs m) c b = V5 m c b :=
  fun b hb => V6_of m (outs m) c b (fun h => hb (Finset.mem_image.mpr ⟨2, Finset.mem_univ _, (List.mem_singleton.mp h).symm⟩))

theorem hF1 (c : Dev nD) (w : Fin cfg1.W) : (dat1 (VE1 m) c).arrAt w cfg1.N = V14 m (outs m) c (Pipeline.arrRef spec1 w) :=
  match w with
  | ⟨0, _⟩ => (((dat1 (VE1 m) c).arrAt_in 0 rfl _).trans (A_eq1 (VE1 m) c 0)).trans ((congrFun (V13_outs m c) _).symm.trans (V14_of m (outs m) c main_v28 (by decide)).symm)
  | ⟨1, _⟩ => (((dat1 (VE1 m) c).arrAt_in 1 rfl _).trans (A_eq1 (VE1 m) c 1)).trans ((congrFun (V13_outs m c) _).symm.trans (V14_of m (outs m) c main_v29 (by decide)).symm)
  | ⟨2, _⟩ => (((dat1 (VE1 m) c).arrAt_in 2 rfl _).trans (A_eq1 (VE1 m) c 2)).trans ((congrFun (V13_outs m c) _).symm.trans (V14_of m (outs m) c main_v30 (by decide)).symm)
  | ⟨3, _⟩ => (V14_v31 m c).symm
theorem hrest1 (c : Dev nD) : ∀ b, b ∉ Finset.univ.image (Pipeline.arrRef spec1) → V14 m (outs m) c b = VE1 m c b :=
  fun b hb => (V14_of m (outs m) c b (fun h => hb (Finset.mem_image.mpr ⟨3, Finset.mem_univ _, (List.mem_singleton.mp h).symm⟩))).trans (congrFun (V13_outs m c) _)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The encoder region: entered from the buffers after the fifth stretch, left with its result array written. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) ((fun m c (b : Ref sig .tc) => V6 m (outs m) c b) m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder region: entered from the buffers after the twelfth stretch, left with the program's result written. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [V13_outs m c]
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) ((fun m c (b : Ref sig .tc) => V14 m (outs m) c b) m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state regrouped: the buffers and the generator register beside the core owing nothing. -/
theorem hlast (c : Dev nD) :
    (iprop(StableHlo.held (c : Thread nD τ) (Pipeline.ucRefs τ sig) (V14 m (outs m) c) ∗ R c) : sProp 𝕄)
      ⊢ iprop(iprop(StableHlo.held (c : Thread nD τ) (Pipeline.ucRefs τ sig) (V14 m (outs m) c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and in every
    final memory each buffer of a core that is no kernel's own holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V14 m (outs m) c) ∗ ∃ r, prngReg c r))
    (hch := fun c => ⟨.rfl, .rfl, .rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V14 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (V14_main_arg0 m (outs m) c),
    (h c _ (mem_uc main_arg1 (by decide))).trans (V14_main_arg1 m (outs m) c),
    (h c _ (mem_uc main_arg2 (by decide))).trans (V14_main_arg2 m (outs m) c),
    (h c _ (mem_uc main_arg3 (by decide))).trans (V14_main_arg3 m (outs m) c),
    (h c _ (mem_uc main_arg4 (by decide))).trans (V14_main_arg4 m (outs m) c),
    (h c _ (mem_uc main_arg5 (by decide))).trans (V14_main_arg5 m (outs m) c),
    (h c _ (mem_uc main_arg6 (by decide))).trans (V14_main_arg6 m (outs m) c),
    (h c _ (mem_uc main_arg7 (by decide))).trans (V14_main_arg7 m (outs m) c)⟩) (run_all m ρ)

/-- The run with the result named: the result buffer ends at the decoder region's final array, the arguments as launched. -/
theorem run_val : θ_run defs (onTc (τ := τ) (main (F := F))) ⟨m, fun _ => 0, ρ⟩ (fun r => ∀ c : Dev nD,
      r.2.mem ((c.tc : Thread nD τ).loc main_v31) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v31 (by decide))).trans (V14_v31 m c),
    (h c _ (mem_uc main_arg0 (by decide))).trans (V14_main_arg0 m (outs m) c),
    (h c _ (mem_uc main_arg1 (by decide))).trans (V14_main_arg1 m (outs m) c),
    (h c _ (mem_uc main_arg2 (by decide))).trans (V14_main_arg2 m (outs m) c),
    (h c _ (mem_uc main_arg3 (by decide))).trans (V14_main_arg3 m (outs m) c),
    (h c _ (mem_uc main_arg4 (by decide))).trans (V14_main_arg4 m (outs m) c),
    (h c _ (mem_uc main_arg5 (by decide))).trans (V14_main_arg5 m (outs m) c),
    (h c _ (mem_uc main_arg6 (by decide))).trans (V14_main_arg6 m (outs m) c),
    (h c _ (mem_uc main_arg7 (by decide))).trans (V14_main_arg7 m (outs m) c)⟩) (run_all m ρ)

end Cert.Kernel.Hand

end
-- ==== Proof.KI.EncRuns.lean ====
/-
  The encoder's accumulating matmul, one grid point at a time. The grid is 8 row blocks by 8 steps along the
  contracted axis; point t is row block t / 8 at step t % 8. At step 0 the body first clears its accumulator
  (a scratch buffer kept from point to point), at every step it adds the product of the point's two input
  blocks to it, and at step 7 it copies the accumulator into the output block. So the body has three control
  cases: the first step (A), a middle step (B), the last step (C). Here: the two branch conditions in closed
  form over the grid, where the output window is idle, and the body's run in each case, with the pieces its
  stores leave in the output block and in the accumulator.
-/
import proofs.«147354_j1314259992767_1_alg».proof.Proof.Gen.KernelIdeal.Launch
import proofs.«147354_j1314259992767_1_alg».proof.Proof.Gen.KernelIdeal.Skeleton
import proofs.«147354_j1314259992767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is step 0 of the contracted axis": the first conditional's scalar chain over the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is step 7, the last": the second conditional. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last step nothing is stored into the output block: the window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x512 .f32 := Memref.whole cc0_scratch0
abbrev VS0_0 : View sig .tc .vmem S512x512 .f32 := scM0_0.view
abbrev VO0_2 : View sig .tc .vmem S512x512 .f32 := (Memref.whole cc0_stg2_0 : Memref sig .tc .vmem S512x512 .f32).view

/-- The scoped buffers of the core that this call neither stages nor uses: the other call's staging buffers, each
    whole at some contents. They ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the body beside its windows: the accumulator at some contents, the untouched scoped
    buffers, the generator register at some state. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

/-! ## The body's run, case by case -/

set_option maxHeartbeats 1000000 in
/-- Step 0: the accumulator is cleared, then the product of the two input blocks is added; the output block is not
    touched. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨[], ?_, fun xi2 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product of the two input blocks is added to what the step before left in the accumulator. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨[], ?_, fun xi2 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product is added to the accumulator, and the accumulator is copied into the output block. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__encoder_kernel i arg2 harg2 arg3 harg3 arg4 harg4 arg5 harg5) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.EncData.lean ====
/-
  The encoder region's proof data: what each control case leaves in the accumulator and in the output block, what
  they hold after each grid point (a recursion on the point: at a first step the cleared accumulator plus the point's
  product, later what the point before left plus the point's product; at a last step the output block is the
  accumulator), the region invariant carrying the accumulator from point to point, and the body obligation: at
  every point the body, called on the pipeline's staging buffers, does exactly that. All of it at a parameter V,
  the buffers' contents when the region is entered.
-/
import proofs.«147354_j1314259992767_1_alg».proof.Proof.KI.EncRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the accumulator tile it, so they cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) (y : S512x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x512.size (by sl_kernel_rfl) y

/-- What case A leaves in the accumulator: its pieces read back. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) : Vec F S512x512 .f32 :=
  VS0_0.read (Elt F) (VS0_0.writes (Elt F) VS0_0.junk (kernelRun0_A c i arg2 harg2 arg3 harg3 arg4 harg4 arg5 harg5 hc0 hc1 x0 x1).2.1)

/-- What case A leaves in the output block: its pieces read back (none: a placeholder nothing consults, the window being idle there). -/
def out0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S512x512 .f32) : Vec F S512x512 .f32 :=
  VO0_2.read (Elt F) (VO0_2.writes (Elt F) VO0_2.junk (kernelRun0_A c i arg2 harg2 arg3 harg3 arg4 harg4 arg5 harg5 hc0 hc1 x0 x1).1)

/-- Case B's pieces for the accumulator tile it, so they cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) (y : S512x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x512.size (by sl_kernel_rfl) y

/-- What case B leaves in the accumulator: its pieces read back. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) : Vec F S512x512 .f32 :=
  VS0_0.read (Elt F) (VS0_0.writes (Elt F) VS0_0.junk (kernelRun0_B c i arg2 harg2 arg3 harg3 arg4 harg4 arg5 harg5 hc0 hc1 x0 x1 xs0).2.1)

/-- What case B leaves in the output block: its pieces read back (none: a placeholder nothing consults, the window being idle there). -/
def out0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S512x512 .f32) (xs0 : Vec F S512x512 .f32) : Vec F S512x512 .f32 :=
  VO0_2.read (Elt F) (VO0_2.writes (Elt F) VO0_2.junk (kernelRun0_B c i arg2 harg2 arg3 harg3 arg4 harg4 arg5 harg5 hc0 hc1 x0 x1 xs0).1)

/-- Case C's pieces for the accumulator tile it, so they cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) (y : S512x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x512.size (by sl_kernel_rfl) y

/-- What case C leaves in the accumulator: its pieces read back. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) : Vec F S512x512 .f32 :=
  VS0_0.read (Elt F) (VS0_0.writes (Elt F) VS0_0.junk (kernelRun0_C c i arg2 harg2 arg3 harg3 arg4 harg4 arg5 harg5 hc0 hc1 x0 x1 xs0).2.1)

/-- What case C leaves in the output block: its pieces read back. -/
def out0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) : Vec F S512x512 .f32 :=
  VO0_2.read (Elt F) (VO0_2.writes (Elt F) VO0_2.junk (kernelRun0_C c i arg2 harg2 arg3 harg3 arg4 harg4 arg5 harg5 hc0 hc1 x0 x1 xs0).1)

/-- Case C's pieces for the output block tile it, so they cover it. -/
theorem cover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S512x512 .f32) (xs0 : Vec F S512x512 .f32) (y : S512x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x512.size (by sl_kernel_rfl) y

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the output block (first component) and the accumulator (second) hold after the body at position n. -/
def outsAt0 (c : Dev nD) : (n : ℕ) → n < cfg0.N → Vec F S512x512 .f32 × Vec F S512x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Hand

end
-- ==== Proof.KI.EncBody.lean ====
/-
  The encoder region's body obligation: at every grid point the body, called on the pipeline's current staging
  buffers, takes the invariant before the point to the invariant after it — the accumulator handed over at what the
  point before left (anything at the very first point) and taken back at this point's contents — leaves the two
  input blocks in place, and leaves the output block written at a last step and untouched otherwise. And the two
  ends of the invariant: what the launch hands the region is the invariant before the first point; after the last
  point the accumulator's contents are forgotten again.
-/
import proofs.«147354_j1314259992767_1_alg».proof.Proof.KI.EncData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ )
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ )
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ )
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.KI.Dec.lean ====
/- The decoder region (pallas_call 1) at a parameter `V`, the TensorCore's buffer contents when the region is
   entered: each window's block at a point, what the body leaves in the output window's buffer as a function of the
   three input blocks, the body's triple, the pipeline's proof data and its body obligation. Generic in the float
   model. -/
import proofs.«147354_j1314259992767_1_alg».proof.Proof.Gen.KernelIdeal.Launch
import proofs.«147354_j1314259992767_1_alg».proof.Proof.Gen.KernelIdeal.Skeleton
import proofs.«147354_j1314259992767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the hundreds: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The decoder region at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    only where the row block changes; in between the block index has not moved), for any proof data whose array is
    `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S256x512 := Rect.unit (s := S256x512) ![0, 0] S256x512.size inb_S256x512_S256x512_0_0
abbrev r1_2 : Rect S1x512 := Rect.unit (s := S1x512) ![0, 0] S1x512.size inb_S1x512_S1x512_0_0
abbrev r1_3 : Rect S512x512 := Rect.unit (s := S512x512) ![0, 0] S512x512.size inb_S512x512_S512x512_0_0

/-! ## What the body leaves in the output window's buffer -/

/-- Window 3's staging buffer after the body, from the input windows' blocks: its one store, of the whole block. -/
def out1_3 (x0 : Vec F S512x256 .f32) (x1 : Vec F S256x512 .f32) (x2 : Vec F S1x512 .f32) : Vec F S512x512 .f32 :=
  View.canon [⟨r1_3, k1_pay1 (View.ld x0 r1_0) (View.ld x1 r1_1) (View.ld x2 r1_2)⟩]

/-- The store is of the whole buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging memrefs, the inputs' at read contents `xW` and the output's at anything, runs to
    the continuation holding the inputs' as they were and the output's at `out1_3` of the inputs' (the read of the
    output buffer before the store is of a value nothing uses). -/
theorem sound_kernel1 (c : Dev nD) (E : Set ℕ) (i : grid1.Coords) (arg0 : Memref sig .tc .vmem S512x256 .f32) (harg0 : arg0.IsWhole) (arg1 : Memref sig .tc .vmem S256x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x256 .f32) (x1 : Vec F S256x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__decoder_kernel i arg0 harg0 arg1 harg1 arg2 harg2 arg3 harg3) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the decoder's pipeline on core `c`: the arrays as the region finds them (`V`); after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The whole program's run. @main is fourteen items: five stretches of host operations (padding the two weight
  matrices and laying them side by side), the encoder region, seven stretches (the two column slices of its result,
  the gather / weight / scatter-add aggregation, bias, root term, relu, the paddings and the bias row), the decoder
  region. Between two items every buffer of the core that is no kernel's own is held whole at named contents: the
  launch memory, then each stretch's operations applied in order, and after a region its arrays at what its
  write-backs leave — the inputs as entered, the result at the region's final array. The run threads these states
  through the items; at the end every such buffer is read back: the arguments hold what they were launched with and
  the result buffer holds the decoder region's final array.
-/
import proofs.«147354_j1314259992767_1_alg».proof.Proof.KI.EncBody
import proofs.«147354_j1314259992767_1_alg».proof.Proof.KI.Dec
import proofs.«147354_j1314259992767_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the encoder region is entered from, read at the TensorCore's references. -/
abbrev VE0 : (c : Dev nD) → (b : Ref sig .tc) → Buf (Elt F) ((c : Thread nD τ).loc b) := fun c b => V5 m c b

/-- At the encoder region's exit: its arrays at what the pipeline leaves, every other buffer as entered. -/
def W6 (c : Dev nD) : Valuation τ sig (Elt F) :=
  Pipeline.withArrays spec0 c (V5 m c) fun w => (dat0 (VE0 m) c).arrAt w cfg0.N

/-- The regions' results, first stage: the encoder's. -/
def outsA : Outs (F := F) := fun _ r c => W6 m c (Proc.devRef .tc r)

/-- What the decoder region is entered from. -/
abbrev VE1 : (c : Dev nD) → (b : Ref sig .tc) → Buf (Elt F) ((c : Thread nD τ).loc b) := fun c b => V13 m (outsA m) c b

/-- At the decoder region's exit. -/
def W14 (c : Dev nD) : Valuation τ sig (Elt F) :=
  Pipeline.withArrays spec1 c (V13 m (outsA m) c) fun w => (dat1 (VE1 m) c).arrAt w cfg1.N

/-- The regions' results: the encoder's after item 5, the decoder's after item 13. -/
def outs : Outs (F := F) := fun J r c => if J = 14 then W14 m c (Proc.devRef .tc r) else W6 m c (Proc.devRef .tc r)

theorem outs_6 (r : Ref sig .tc) (c : Dev nD) : outs m 6 r c = W6 m c (Proc.devRef .tc r) := if_neg (by decide)
theorem outs_14 (r : Ref sig .tc) (c : Dev nD) : outs m 14 r c = W14 m c (Proc.devRef .tc r) := if_pos rfl
theorem V6_outs (c : Dev nD) : V6 m (outs m) c = V6 m (outsA m) c := by
  show Function.update (V5 m c) (Proc.devRef .tc main_v3) (outs m 6 main_v3 c) = Function.update (V5 m c) (Proc.devRef .tc main_v3) (outsA m 6 main_v3 c)
  rw [outs_6]; rfl
theorem V13_outs (c : Dev nD) : V13 m (outs m) c = V13 m (outsA m) c := by
  show StableHlo.after hostOps1_6 (StableHlo.after hostOps1_5 (StableHlo.after hostOps1_4 (StableHlo.after hostOps1_3 (StableHlo.after hostOps1_2 (StableHlo.after hostOps1_1 (StableHlo.after hostOps1 (V6 m (outs m) c))))))) = _
  rw [V6_outs]

/-- The encoder's result buffer after the region is the region's final array. -/
theorem V6_v3 (c : Dev nD) : V6 m (outs m) c main_v3 = (dat0 (VE0 m) c).arrAt 2 cfg0.N := by
  show Function.update (V5 m c) (Proc.devRef .tc main_v3) (outs m 6 main_v3 c) (Proc.devRef .tc main_v3) = _
  rw [Function.update_self, outs_6]
  unfold W6; exact Pipeline.withArrays_arr spec0 launch0.win.arr_inj c _ _ 2

/-- The program's result buffer at the end is the decoder region's final array. -/
theorem V14_v31 (c : Dev nD) : V14 m (outs m) c main_v31 = (dat1 (VE1 m) c).arrAt 3 cfg1.N := by
  show Function.update (V13 m (outs m) c) (Proc.devRef .tc main_v31) (outs m 14 main_v31 c) (Proc.devRef .tc main_v31) = _
  rw [Function.update_self, outs_14]
  unfold W14; exact Pipeline.withArrays_arr spec1 launch1.win.arr_inj c _ _ 3

theorem hF0 (c : Dev nD) (w : Fin cfg0.W) : (dat0 (VE0 m) c).arrAt w cfg0.N = V6 m (outs m) c (Pipeline.arrRef spec0 w) :=
  match w with
  | ⟨0, _⟩ => (((dat0 (VE0 m) c).arrAt_in 0 rfl _).trans (A_eq0 (VE0 m) c 0)).trans (V6_of m (outs m) c main_arg0 (by decide)).symm
  | ⟨1, _⟩ => (((dat0 (VE0 m) c).arrAt_in 1 rfl _).trans (A_eq0 (VE0 m) c 1)).trans (V6_of m (outs m) c main_v2 (by decide)).symm
  | ⟨2, _⟩ => (V6_v3 m c).symm
theorem hrest0 (c : Dev nD) : ∀ b, b ∉ Finset.univ.image (Pipeline.arrRef spec0) → V6 m (outs m) c b = V5 m c b :=
  fun b hb => V6_of m (outs m) c b (fun h => hb (Finset.mem_image.mpr ⟨2, Finset.mem_univ _, (List.mem_singleton.mp h).symm⟩))

theorem hF1 (c : Dev nD) (w : Fin cfg1.W) : (dat1 (VE1 m) c).arrAt w cfg1.N = V14 m (outs m) c (Pipeline.arrRef spec1 w) :=
  match w with
  | ⟨0, _⟩ => (((dat1 (VE1 m) c).arrAt_in 0 rfl _).trans (A_eq1 (VE1 m) c 0)).trans ((congrFun (V13_outs m c) _).symm.trans (V14_of m (outs m) c main_v28 (by decide)).symm)
  | ⟨1, _⟩ => (((dat1 (VE1 m) c).arrAt_in 1 rfl _).trans (A_eq1 (VE1 m) c 1)).trans ((congrFun (V13_outs m c) _).symm.trans (V14_of m (outs m) c main_v29 (by decide)).symm)
  | ⟨2, _⟩ => (((dat1 (VE1 m) c).arrAt_in 2 rfl _).trans (A_eq1 (VE1 m) c 2)).trans ((congrFun (V13_outs m c) _).symm.trans (V14_of m (outs m) c main_v30 (by decide)).symm)
  | ⟨3, _⟩ => (V14_v31 m c).symm
theorem hrest1 (c : Dev nD) : ∀ b, b ∉ Finset.univ.image (Pipeline.arrRef spec1) → V14 m (outs m) c b = VE1 m c b :=
  fun b hb => (V14_of m (outs m) c b (fun h => hb (Finset.mem_image.mpr ⟨3, Finset.mem_univ _, (List.mem_singleton.mp h).symm⟩))).trans (congrFun (V13_outs m c) _)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The encoder region: entered from the buffers after the fifth stretch, left with its result array written. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) ((fun m c (b : Ref sig .tc) => V6 m (outs m) c b) m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder region: entered from the buffers after the twelfth stretch, left with the program's result written. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [V13_outs m c]
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) ((fun m c (b : Ref sig .tc) => V14 m (outs m) c b) m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state regrouped: the buffers and the generator register beside the core owing nothing. -/
theorem hlast (c : Dev nD) :
    (iprop(StableHlo.held (c : Thread nD τ) (Pipeline.ucRefs τ sig) (V14 m (outs m) c) ∗ R c) : sProp 𝕄)
      ⊢ iprop(iprop(StableHlo.held (c : Thread nD τ) (Pipeline.ucRefs τ sig) (V14 m (outs m) c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and in every
    final memory each buffer of a core that is no kernel's own holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V14 m (outs m) c) ∗ ∃ r, prngReg c r))
    (hch := fun c => ⟨.rfl, .rfl, .rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V14 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (V14_main_arg0 m (outs m) c),
    (h c _ (mem_uc main_arg1 (by decide))).trans (V14_main_arg1 m (outs m) c),
    (h c _ (mem_uc main_arg2 (by decide))).trans (V14_main_arg2 m (outs m) c),
    (h c _ (mem_uc main_arg3 (by decide))).trans (V14_main_arg3 m (outs m) c),
    (h c _ (mem_uc main_arg4 (by decide))).trans (V14_main_arg4 m (outs m) c),
    (h c _ (mem_uc main_arg5 (by decide))).trans (V14_main_arg5 m (outs m) c),
    (h c _ (mem_uc main_arg6 (by decide))).trans (V14_main_arg6 m (outs m) c),
    (h c _ (mem_uc main_arg7 (by decide))).trans (V14_main_arg7 m (outs m) c)⟩) (run_all m ρ)

/-- The run with the result named: the result buffer ends at the decoder region's final array, the arguments as launched. -/
theorem run_val : θ_run defs (onTc (τ := τ) (main (F := F))) ⟨m, fun _ => 0, ρ⟩ (fun r => ∀ c : Dev nD,
      r.2.mem ((c.tc : Thread nD τ).loc main_v31) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v31 (by decide))).trans (V14_v31 m c),
    (h c _ (mem_uc main_arg0 (by decide))).trans (V14_main_arg0 m (outs m) c),
    (h c _ (mem_uc main_arg1 (by decide))).trans (V14_main_arg1 m (outs m) c),
    (h c _ (mem_uc main_arg2 (by decide))).trans (V14_main_arg2 m (outs m) c),
    (h c _ (mem_uc main_arg3 (by decide))).trans (V14_main_arg3 m (outs m) c),
    (h c _ (mem_uc main_arg4 (by decide))).trans (V14_main_arg4 m (outs m) c),
    (h c _ (mem_uc main_arg5 (by decide))).trans (V14_main_arg5 m (outs m) c),
    (h c _ (mem_uc main_arg6 (by decide))).trans (V14_main_arg6 m (outs m) c),
    (h c _ (mem_uc main_arg7 (by decide))).trans (V14_main_arg7 m (outs m) c)⟩) (run_all m ρ)

end Cert.KernelIdeal.Hand

end
-- ==== Proof.Spec.lean ====
/-
  The two pure functions the kernel's regions compute at the ideal instance, each read at an index as a plain
  row-by-column sum over the extended reals:
  * `encG x w`   — the product of a [4096,4096] array by a [4096,512] array;
  * `decG z w b` — the product of a [4096,256] array by a [256,4096] array plus a bias row broadcast over the rows.
-/
import proofs.«147354_j1314259992767_1_alg».proof.KernelIdeal
import Idealize.ShloMosaic.PureOps.Ideal
import Idealize.ShloMosaic.Lib.ValueIdx

noncomputable section

open scoped BigOperators

namespace Cert.KernelIdeal.HandValue

open Idealize.ShloMosaic Cert.KernelIdeal

/-- The encoder's value: entry (r, c) is the sum over k of x(r, k) * w(k, c). -/
def encG (x : FVec Ideal S4096x4096 .f32) (w : FVec Ideal S4096x512 .f32) : FVec Ideal S4096x512 .f32 :=
  fun i => ∑ k : Fin 4096, x (ValueIdx.ix2 (i 0 : Fin 4096) k) * w (ValueIdx.ix2 k (i 1 : Fin 512))

/-- The decoder's value: entry (r, c) is the sum over k of z(r, k) * w(k, c), plus the bias b(0, c). -/
def decG (z : FVec Ideal S4096x256 .f32) (w : FVec Ideal S256x4096 .f32) (b : FVec Ideal S1x4096 .f32) :
    FVec Ideal S4096x4096 .f32 :=
  fun i => (∑ k : Fin 256, z (ValueIdx.ix2 (i 0 : Fin 4096) k) * w (ValueIdx.ix2 k (i 1 : Fin 4096)))
    + b (ValueIdx.ix2 (0 : Fin 1) (i 1 : Fin 4096))

end Cert.KernelIdeal.HandValue

end
-- ==== Proof.DecValue.lean ====
/- The decoder region's output array as ONE function of its three input arrays, at the ideal (extended-real) values:
   entry (r, q) of the [4096,4096] result is the sum over the 256 contracted positions of z(r, k) * w(k, q), plus the
   bias entry b(0, q). First the body's stored value at a block index (a block product into the zero accumulator plus
   the broadcast bias row; narrowing to the 16-bit format is the identity on the extended reals), then a block of the
   computation as a block of that function (the contracted axis is whole in both operand blocks), then the 8 × 8
   blocks tiling the array. -/
import proofs.«147354_j1314259992767_1_alg».proof.Proof.KI.Dec
import proofs.«147354_j1314259992767_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! ## The contraction's operand indices -/

theorem dec_lhs0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem dec_lhs1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem dec_rhs0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem dec_rhs1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-! ## The body's payload at an index -/

/-- The block product read at (p, q): the plain sum over the 256 contracted positions of the row of the left block
    times the column of the right block. -/
theorem dec_matmul_apply (y0 : FVec Ideal S512x256 .bf16) (y1 : FVec Ideal S256x512 .bf16) (p q : Fin 512) :
    (matmul dot_S512x256_S256x512_S512x512_1_0_0_1_n_n none y0 y1 (constant S512x512 .f32 0x00000000#32) : FVec Ideal S512x512 .f32) (ix2 p q)
      = ∑ k : Fin 256, y0 (ix2 p k) * y1 (ix2 k q) := by
  refine (Ideal.matmul_constant_zero_apply dot_S512x256_S256x512_S512x512_1_0_0_1_n_n none y0 y1 (ix2 p q)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k := funext fun a => Fin.ext (by
    match a with
    | ⟨0, _⟩ => exact dec_lhs0 _ _
    | ⟨1, _⟩ => exact (dec_lhs1 _ _).trans hk)
  have er : dot_S512x256_S256x512_S512x512_1_0_0_1_n_n.rhsIdx (ix2 p q) ((contrEquiv1 dot_S512x256_S256x512_S512x512_1_0_0_1_n_n 256 rfl rfl).symm k) = ix2 k q := funext fun a => Fin.ext (by
    match a with
    | ⟨0, _⟩ => exact (dec_rhs0 _ _).trans hk
    | ⟨1, _⟩ => exact dec_rhs1 _ _)
  rw [el, er]

/-- The bias row broadcast over the rows, read at (p, q): the row's entry at column q. -/
theorem dec_bias_apply (x2 : FVec Ideal S1x512 .f32) (p q : Fin 512) :
    (broadcastTo S512x512 x2 broadcasts_S1x512_S512x512) (ix2 p q) = x2 (ix2 (0 : Fin 1) q) :=
  broadcastTo_apply x2 broadcasts_S1x512_S512x512 (ix2 p q) (ix2 (0 : Fin 1) q) (fun a => by
    match a with
    | ⟨0, _⟩ => rfl
    | ⟨1, _⟩ => rfl)

/-- The body's stored value at (p, q), from the three loaded blocks: the block product there plus the bias entry of
    the column. Narrowing to the 16-bit format is the identity on the extended reals. -/
theorem dec_pay_apply (x0 : Vec Ideal S512x256 .f32) (x1 : Vec Ideal S256x512 .f32) (x2 : Vec Ideal S1x512 .f32)
    (p q : Fin 512) :
    k1_pay1 (F := Ideal) x0 x1 x2 (ix2 p q)
      = (∑ k : Fin 256, x0 (ix2 p k) * x1 (ix2 k q)) + x2 (ix2 (0 : Fin 1) q) := by
  unfold k1_pay1
  rw [shapeCast_self, shapeCast_self, shapeCast_self, addf_apply, dec_matmul_apply, dec_bias_apply]
  rfl

/-! ## A block of the computation is a block of `decG` -/

/-- With the three input blocks read off arrays `z`, `w`, `b` at rows `r0 + ·` (left), columns `c0 + ·` (right and
    bias), the body's value at a block index is `decG z w b` at row `r0 + ·`, column `c0 + ·`: the contracted axis is
    whole in both blocks, so the block's sum is the array's. -/
theorem dec_block (z : FVec Ideal S4096x256 .f32) (w : FVec Ideal S256x4096 .f32) (b : FVec Ideal S1x4096 .f32)
    (e0 : S512x256.Idx → S4096x256.Idx) (e1 : S256x512.Idx → S256x4096.Idx) (e2 : S1x512.Idx → S1x4096.Idx)
    (e3 : S512x512.Idx → S4096x4096.Idx) (r0 c0 : ℕ)
    (he0 : ∀ y, ((e0 y) 0).val = r0 + (y 0).val ∧ ((e0 y) 1).val = (y 1).val)
    (he1 : ∀ y, ((e1 y) 0).val = (y 0).val ∧ ((e1 y) 1).val = c0 + (y 1).val)
    (he2 : ∀ y, ((e2 y) 1).val = c0 + (y 1).val)
    (he3 : ∀ y, ((e3 y) 0).val = r0 + (y 0).val ∧ ((e3 y) 1).val = c0 + (y 1).val)
    (j : S512x512.Idx) :
    k1_pay1 (F := Ideal) (fun y => z (e0 y)) (fun y => w (e1 y)) (fun y => b (e2 y)) j = decG z w b (e3 j) := by
  obtain ⟨p, q, rfl⟩ : ∃ (p q : Fin 512), j = ix2 p q := ⟨j 0, j 1, eq_ix2 j⟩
  have h0 : ∀ k : Fin 256, e0 (ix2 p k) = ix2 ((e3 (ix2 p q)) 0 : Fin 4096) k := fun k => by
    funext a; apply Fin.ext
    match a with
    | ⟨0, _⟩ => show ((e0 (ix2 p k)) 0).val = ((e3 (ix2 p q)) 0).val; rw [(he0 _).1, (he3 _).1]
    | ⟨1, _⟩ => show ((e0 (ix2 p k)) 1).val = k.val; rw [(he0 _).2]
  have h1 : ∀ k : Fin 256, e1 (ix2 k q) = ix2 k ((e3 (ix2 p q)) 1 : Fin 4096) := fun k => by
    funext a; apply Fin.ext
    match a with
    | ⟨0, _⟩ => show ((e1 (ix2 k q)) 0).val = k.val; rw [(he1 _).1]
    | ⟨1, _⟩ => show ((e1 (ix2 k q)) 1).val = ((e3 (ix2 p q)) 1).val; rw [(he1 _).2, (he3 _).2]
  have h2 : e2 (ix2 (0 : Fin 1) q) = ix2 (0 : Fin 1) ((e3 (ix2 p q)) 1 : Fin 4096) := by
    funext a; apply Fin.ext
    match a with
    | ⟨0, _⟩ =>
      show ((e2 (ix2 (0 : Fin 1) q)) 0).val = 0
      have h : ((e2 (ix2 (0 : Fin 1) q)) 0).val < 1 := ((e2 (ix2 (0 : Fin 1) q)) 0).isLt
      omega
    | ⟨1, _⟩ => show ((e2 (ix2 (0 : Fin 1) q)) 1).val = ((e3 (ix2 p q)) 1).val; rw [he2, (he3 _).2]
  refine (dec_pay_apply _ _ _ p q).trans ?_
  show (∑ k : Fin 256, z (e0 (ix2 p k)) * w (e1 (ix2 k q))) + b (e2 (ix2 (0 : Fin 1) q))
    = (∑ k : Fin 256, z (ix2 ((e3 (ix2 p q)) 0 : Fin 4096) k) * w (ix2 k ((e3 (ix2 p q)) 1 : Fin 4096)))
      + b (ix2 (0 : Fin 1) ((e3 (ix2 p q)) 1 : Fin 4096))
  rw [h2]
  exact congrArg (· + _) (Finset.sum_congr rfl fun k _ => congrArg₂ (· * ·) (congrArg z (h0 k)) (congrArg w (h1 k)))

/-! ## From the blocks to the array -/

theorem hz : (![0, 0] : Fin 2 → Nat) = fun _ => 0 := funext fun a => by fin_cases a <;> rfl

/-- The windows' block indices, decided over the 64 grid points: the left operand's block moves with the output's row
    block and is whole along the contracted axis; the right operand's and the bias row's move with the output's column
    block; the output's block indices stay below 8. -/
theorem dec_idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every one of the 8 × 8 output blocks is some point's. -/
theorem dec_idx_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

section Final
variable (V : (c : Dev nD) → (b : Ref sig .tc) → Buf (Elt Ideal) ((c : Thread nD τ).loc b))

/-- What point `t` writes back is block `t` of `decG` of the three input arrays as the region finds them. -/
theorem dec_flushed_eq (c : Dev nD) (t : Fin cfg1.N) :
    (dat1 (F := Ideal) V c).flushed 3 t
      = ((cfg1.win 3).blk t).view.read (Elt Ideal) (decG (V c main_v28) (V c main_v29) (V c main_v30)) := by
  show (cfg1.win 3).cut (grid1.coords t) ((dat1 (F := Ideal) V c).after 3 t) = _
  rw [after1_3]
  unfold out1_3
  rw [View.canon_unit_zero hz]
  simp only [View.ld_unit_zero (S := S512x256) hz, View.ld_unit_zero (S := S256x512) hz, View.ld_unit_zero (S := S1x512) hz]
  obtain ⟨f0, f1, f2, f3, f4, f5, f6, f7⟩ := dec_idx_facts t
  funext j
  exact dec_block (V c main_v28) (V c main_v29) (V c main_v30)
    ((cfg1.win 0).blk t).view.emb ((cfg1.win 1).blk t).view.emb ((cfg1.win 2).blk t).view.emb ((cfg1.win 3).blk t).view.emb
    (win1_3.index t (0 : Fin 2) * 512) (win1_3.index t (1 : Fin 2) * 512)
    (fun y => ⟨by show win1_0.index t (0 : Fin 2) * 512 + 1 * (y 0).val = _; omega,
               by show win1_0.index t (1 : Fin 2) * 256 + 1 * (y 1).val = _; omega⟩)
    (fun y => ⟨by show win1_1.index t (0 : Fin 2) * 256 + 1 * (y 0).val = _; omega,
               by show win1_1.index t (1 : Fin 2) * 512 + 1 * (y 1).val = _; omega⟩)
    (fun y => by show win1_2.index t (1 : Fin 2) * 512 + 1 * (y 1).val = _; omega)
    (fun y => ⟨by show win1_3.index t (0 : Fin 2) * 512 + 1 * (y 0).val = _; omega,
               by show win1_3.index t (1 : Fin 2) * 512 + 1 * (y 1).val = _; omega⟩)
    j

/-- An index of the output array is in point `t`'s block iff each coordinate is in the block's range on its axis. -/
theorem dec_mem_blk (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v31).slice (win1_3.rect t)).set ↔ _
  rw [View.set_slice_whole, Rect.mem_set_unit]
  exact Iff.rfl

/-- The 64 blocks tile the output array: (r, q) is in the block of the point whose block indices are r / 512 and
    q / 512, and every point writes its block back. -/
theorem dec_cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := dec_idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [dec_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- THE OUTPUT ARRAY after the region: `decG` of the three input arrays as the region finds them. -/
theorem dec_final (c : Dev nD) :
    (dat1 (F := Ideal) V c).arrAt 3 cfg1.N = decG (V c main_v28) (V c main_v29) (V c main_v30) :=
  (dat1 (F := Ideal) V c).arrAt_eq_of_cover 3 (decG (V c main_v28) (V c main_v29) (V c main_v30))
    (fun t _ => dec_flushed_eq V c t) dec_cover

end Final

end Cert.KernelIdeal.HandValue

end
-- ==== Proof.EncPieces.lean ====
/- The encoder body's three control cases read back as arithmetic: what a first, a middle and the last step of the
   contracted axis leave in the accumulator (and, at the last step, in the output block) is the body's one
   arithmetic expression — the accumulator handed in plus the product of the two input blocks — of the blocks it was
   handed; at a first step the accumulator handed in is the zero block the body has just stored. Generic in the
   float model. -/
import proofs.«147354_j1314259992767_1_alg».proof.Proof.KI.EncData
import proofs.«147354_j1314259992767_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.HandValue

open Cert.KernelIdeal Cert.KernelIdeal.Gen Cert.KernelIdeal.Hand Idealize.ShloMosaic Idealize.ShloMosaic.TcCoe Idealize.SL.Sem
open Idealize.ShloMosaic.Tactic
open Idealize.ShloMosaic.Pipeline (Dat)
open Idealize.ShloMosaic.ValueIdx

/-! ## What each control case leaves, as the body's arithmetic of the blocks it was handed -/

section Pieces
variable {F : FTy → Type} [FloatOps F]

theorem hz0 : (![0, 0] : Fin 2 → Nat) = fun _ => 0 := funext fun a => by fin_cases a <;> rfl

/-- A first step leaves in the accumulator the cleared accumulator plus the product of the two input blocks (the
    body's read-back of the zero block it has just stored is that zero block). -/
theorem sout_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 x1 : Vec F S512x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x512) hz0, View.readCov_unit_zero (S := S512x512) _ hz0]
  simp only [View.readAt_eq_ld, harg2.read_unread, harg3.read_unread, View.ld_unit_zero (S := S512x512) hz0]

/-- A middle step leaves in the accumulator what it was handed plus the product of the two input blocks. -/
theorem sout_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 x1 xs0 : Vec F S512x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S512x512) hz0]
  simp only [View.readAt_eq_ld, harg2.read_unread, harg3.read_unread, harg5.read_unread, View.ld_unit_zero (S := S512x512) hz0]

/-- The last step leaves the same in the accumulator, -/
theorem sout_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 x1 xs0 : Vec F S512x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S512x512) hz0]
  simp only [View.readAt_eq_ld, harg2.read_unread, harg3.read_unread, harg5.read_unread, View.ld_unit_zero (S := S512x512) hz0]

/-- and copies it into the output block: the output block after the last step is the accumulator after the add. -/
theorem out_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 x1 xs0 : Vec F S512x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S512x512) hz0, View.readCov_unit_zero (S := S512x512) _ hz0]
  simp only [View.readAt_eq_ld, harg2.read_unread, harg3.read_unread, harg5.read_unread, View.ld_unit_zero (S := S512x512) hz0]

end Pieces

end Cert.KernelIdeal.HandValue

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.EncSum.lean ====
/-
  A sum over 4096 positions taken as 8 consecutive chunks of 512: the chunk-by-chunk double sum, with the chunk number
  running over `Finset.range 8`, is the flat sum. Stated for any commutative additive monoid (the extended reals are
  one) and for any chunk term `F s k` given as a function of the NATURAL chunk number `s` that agrees, for `s < 8`, with
  the flat family at position `512 * s + k`.
-/
import proofs.«147354_j1314259992767_1_alg».proof.Proof.LibSumBlocks

open scoped BigOperators

namespace Cert.KernelIdeal.HandValue

/-- Eight chunks of 512 make the sum over 4096. -/
theorem enc_sum_chunks {M : Type*} [AddCommMonoid M] (n : ℕ) (hn : n = 8) (F : ℕ → Fin 512 → M) (g : Fin 4096 → M)
    (h : ∀ (s : Fin 8) (k : Fin 512), F s.val k = g ⟨512 * s.val + k.val, by have := s.isLt; have := k.isLt; omega⟩) :
    ∑ s ∈ Finset.range n, ∑ k : Fin 512, F s k = ∑ k : Fin 4096, g k := by
  subst hn
  rw [Cert.SumBlocks.sum_fin_blocks 8 512 (by decide : 4096 = 8 * 512) g,
    Cert.SumBlocks.sum_range_eq_sum_fin 8 (fun s => ∑ k : Fin 512, F s k)
      (fun s : Fin 8 => ∑ k : Fin 512, g ⟨s.val * 512 + k.val, by have := s.isLt; have := k.isLt; omega⟩)
      (fun s => Finset.sum_congr rfl fun k _ => (h s k).trans (congrArg g (Fin.ext (by show 512 * s.val + k.val = s.val * 512 + k.val; omega))))]

end Cert.KernelIdeal.HandValue
-- ==== Proof.EncValue.lean ====
/- The encoder region's output array as ONE function of its two input arrays, at the ideal (extended-real) values:
   entry (r, q) of the [4096,512] result is the sum over the 4096 contracted positions of x(r, k) * w(k, q). The grid is
   8 row blocks by 8 steps along the contracted axis. First one step's arithmetic at a block index (the accumulator
   handed in plus a 512-term block product; the cleared accumulator is zero), then the input blocks read off the
   arrays, then — by induction on the grid point — the accumulator after step s of a row block as the first s + 1
   chunks of the sum, then the output block at a last step (all eight chunks, which are the 4096 positions), and the
   eight row blocks tiling the array. Addition on the extended reals is a commutative monoid; nothing finite is needed. -/
import proofs.«147354_j1314259992767_1_alg».proof.Proof.EncPieces
import proofs.«147354_j1314259992767_1_alg».proof.Proof.EncSum
import proofs.«147354_j1314259992767_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.HandValue

open Cert.KernelIdeal Cert.KernelIdeal.Gen Cert.KernelIdeal.Hand Idealize.ShloMosaic Idealize.ShloMosaic.TcCoe Idealize.SL.Sem
open Idealize.ShloMosaic.Tactic
open Idealize.ShloMosaic.Pipeline (Dat)
open Idealize.ShloMosaic.ValueIdx

/-! ## The contraction's operand indices -/

theorem enc_lhs0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem enc_lhs1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem enc_rhs0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem enc_rhs1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-! ## The body's arithmetic at an index -/

/-- The block product read at (p, q): the plain sum over the block's 512 contracted positions. -/
theorem enc_matmul_apply (y0 y1 : FVec Ideal S512x512 .bf16) (p q : Fin 512) :
    (matmul dot_S512x512_S512x512_S512x512_1_0_0_1_n_n none y0 y1 (constant S512x512 .f32 0x00000000#32) : FVec Ideal S512x512 .f32) (ix2 p q)
      = ∑ k : Fin 512, y0 (ix2 p k) * y1 (ix2 k q) := by
  refine (Ideal.matmul_constant_zero_apply dot_S512x512_S512x512_S512x512_1_0_0_1_n_n none y0 y1 (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact enc_lhs0 _ _
    | ⟨1, _⟩ => exact (enc_lhs1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (enc_rhs0 _ _).trans hk
    | ⟨1, _⟩ => exact enc_rhs1 _ _)
  rw [el, er]

/-- One step's value at (p, q): the accumulator handed in there, plus the block product there. Narrowing to the
    16-bit format is the identity on the extended reals. -/
theorem enc_pay2_apply (x0 x1 xs : Vec Ideal S512x512 .f32) (p q : Fin 512) :
    k0_pay2 (F := Ideal) x0 x1 xs (ix2 p q) = xs (ix2 p q) + ∑ k : Fin 512, x0 (ix2 p k) * x1 (ix2 k q) := by
  unfold k0_pay2
  rw [shapeCast_self, shapeCast_self, addf_apply, enc_matmul_apply]
  rfl

/-- The cleared accumulator is zero everywhere. -/
theorem enc_pay1_apply (p q : Fin 512) : k0_pay1 (F := Ideal) (ix2 p q) = 0 := by
  unfold k0_pay1
  rw [shapeCast_self]
  exact Ideal.ofBits_zero_f32

/-! ## Array indices from a block number and a position in the block -/

/-- Position `p` of block number `R` along an axis of extent 4096 cut into blocks of 512: total in `R`, and
    `512 * R + p` itself for the block numbers below 8. -/
def at512 (R : ℕ) (p : Fin 512) : Fin 4096 := ⟨(512 * R + p.val) % 4096, Nat.mod_lt _ (by decide)⟩

theorem at512_val (R : ℕ) (hR : R < 8) (p : Fin 512) : (at512 R p).val = 512 * R + p.val := by
  show (512 * R + p.val) % 4096 = _
  have := p.isLt
  omega

/-- Chunk `s` of the row-by-column sum for entry (p, q) of row block `R`: the 512 contracted positions of block `s`. -/
def stepTerm (x : FVec Ideal S4096x4096 .f32) (w : FVec Ideal S4096x512 .f32) (R s : ℕ) (p q : Fin 512) :
    Idealize.ShloMosaic.Ideal .f32 :=
  ∑ k : Fin 512, x (ix2 (at512 R p) (at512 s k)) * w (ix2 (at512 s k) q)

/-- The windows' block indices, decided over the 64 grid points: point t is row block t / 8 at step t % 8; the left
    operand's block is (row block, step), the right operand's (step, 0), the output's (row block, 0). -/
theorem enc_idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Every row block's last step is some point's. -/
theorem enc_idx_onto : ∀ q0 : Fin 8, ∃ t : Fin cfg0.N, t.val % 8 = 7 ∧ win0_2.index t = ![q0.val, 0] :=
  (by decide +kernel : ∀ q0 : Fin 8, ∃ t : Fin grid0.N, t.val % 8 = 7 ∧ win0_2.index t = ![q0.val, 0])

section Final
variable (V : (c : Dev nD) → (b : Ref sig .tc) → Buf (Elt Ideal) ((c : Thread nD τ).loc b))

/-! ## The input blocks, read off the arrays -/

theorem enc_blk0 (c : Dev nD) (n : ℕ) (hn : n < cfg0.N) (p k : Fin 512) :
    iblk0 V c 0 ⟨n, hn⟩ (ix2 p k) = V c main_arg0 (ix2 (at512 (n / 8) p) (at512 (n % 8) k)) := by
  obtain ⟨f0, f1, -, -, -, -⟩ : win0_0.index ⟨n, hn⟩ (0 : Fin 2) = n / 8 ∧ win0_0.index ⟨n, hn⟩ (1 : Fin 2) = n % 8
    ∧ win0_1.index ⟨n, hn⟩ (0 : Fin 2) = n % 8 ∧ win0_1.index ⟨n, hn⟩ (1 : Fin 2) = 0
    ∧ win0_2.index ⟨n, hn⟩ (0 : Fin 2) = n / 8 ∧ win0_2.index ⟨n, hn⟩ (1 : Fin 2) = 0 := enc_idx_facts ⟨n, hn⟩
  have hN : n < 64 := by have h : cfg0.N = 64 := N_0; omega
  have hp := p.isLt
  have hk := k.isLt
  show V c main_arg0 (((cfg0.win 0).blk ⟨n, hn⟩).view.emb (ix2 p k)) = _
  refine congrArg (V c main_arg0) (funext fun a => Fin.ext ?_)
  match a with
  | ⟨0, _⟩ => show win0_0.index ⟨n, hn⟩ (0 : Fin 2) * 512 + 1 * p.val = (512 * (n / 8) + p.val) % 4096; omega
  | ⟨1, _⟩ => show win0_0.index ⟨n, hn⟩ (1 : Fin 2) * 512 + 1 * k.val = (512 * (n % 8) + k.val) % 4096; omega

theorem enc_blk1 (c : Dev nD) (n : ℕ) (hn : n < cfg0.N) (k q : Fin 512) :
    iblk0 V c 1 ⟨n, hn⟩ (ix2 k q) = V c main_v2 (ix2 (at512 (n % 8) k) q) := by
  obtain ⟨-, -, f2, f3, -, -⟩ : win0_0.index ⟨n, hn⟩ (0 : Fin 2) = n / 8 ∧ win0_0.index ⟨n, hn⟩ (1 : Fin 2) = n % 8
    ∧ win0_1.index ⟨n, hn⟩ (0 : Fin 2) = n % 8 ∧ win0_1.index ⟨n, hn⟩ (1 : Fin 2) = 0
    ∧ win0_2.index ⟨n, hn⟩ (0 : Fin 2) = n / 8 ∧ win0_2.index ⟨n, hn⟩ (1 : Fin 2) = 0 := enc_idx_facts ⟨n, hn⟩
  have hN : n < 64 := by have h : cfg0.N = 64 := N_0; omega
  have hq := q.isLt
  have hk := k.isLt
  show V c main_v2 (((cfg0.win 1).blk ⟨n, hn⟩).view.emb (ix2 k q)) = _
  refine congrArg (V c main_v2) (funext fun a => Fin.ext ?_)
  match a with
  | ⟨0, _⟩ => show win0_1.index ⟨n, hn⟩ (0 : Fin 2) * 512 + 1 * k.val = (512 * (n % 8) + k.val) % 4096; omega
  | ⟨1, _⟩ => show win0_1.index ⟨n, hn⟩ (1 : Fin 2) * 512 + 1 * q.val = q.val; omega

/-- One step at point `n`: the accumulator handed in plus chunk `n % 8` of the sum for row block `n / 8`. -/
theorem enc_step (c : Dev nD) (n : ℕ) (hn : n < cfg0.N) (acc : Vec Ideal S512x512 .f32) (p q : Fin 512) :
    k0_pay2 (F := Ideal) (iblk0 V c 0 ⟨n, hn⟩) (iblk0 V c 1 ⟨n, hn⟩) acc (ix2 p q)
      = acc (ix2 p q) + stepTerm (V c main_arg0) (V c main_v2) (n / 8) (n % 8) p q := by
  refine (enc_pay2_apply _ _ _ p q).trans ?_
  unfold stepTerm
  exact congrArg (acc (ix2 p q) + ·) (Finset.sum_congr rfl fun k _ =>
    congrArg₂ (· * ·) (enc_blk0 V c n hn p k) (enc_blk1 V c n hn k q))

/-! ## What each kind of point leaves, as that arithmetic -/

theorem enc_acc_A (c : Dev nD) (t : Fin cfg0.N) (h0 : t.val % 8 = 0) (h1 : ¬t.val % 8 = 7) :
    (outsAt0 (F := Ideal) V c t.val t.isLt).2 = k0_pay2 (iblk0 V c 0 t) (iblk0 V c 1 t) (k0_pay1 (F := Ideal)) := by
  rw [outsAt0_A V c t h0 h1]
  dsimp only
  exact sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)

theorem enc_acc_B (c : Dev nD) (t : Fin cfg0.N) (h0 : ¬t.val % 8 = 0) (h1 : ¬t.val % 8 = 7) :
    (outsAt0 (F := Ideal) V c t.val t.isLt).2 = k0_pay2 (iblk0 V c 0 t) (iblk0 V c 1 t)
      (outsAt0 (F := Ideal) V c (t.val - 1) (Nat.lt_of_le_of_lt (Nat.sub_le _ _) t.isLt)).2 := by
  rw [outsAt0_B V c t h0 h1]
  dsimp only
  exact sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 (F := Ideal) V c (t.val - 1) (Nat.lt_of_le_of_lt (Nat.sub_le _ _) t.isLt)).2

theorem enc_acc_C (c : Dev nD) (t : Fin cfg0.N) (h0 : ¬t.val % 8 = 0) (h1 : t.val % 8 = 7) :
    (outsAt0 (F := Ideal) V c t.val t.isLt).2 = k0_pay2 (iblk0 V c 0 t) (iblk0 V c 1 t)
      (outsAt0 (F := Ideal) V c (t.val - 1) (Nat.lt_of_le_of_lt (Nat.sub_le _ _) t.isLt)).2 := by
  rw [outsAt0_C V c t h0 h1]
  dsimp only
  exact sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 (F := Ideal) V c (t.val - 1) (Nat.lt_of_le_of_lt (Nat.sub_le _ _) t.isLt)).2

/-- At a last step the output block is the accumulator. -/
theorem enc_out_C (c : Dev nD) (t : Fin cfg0.N) (h0 : ¬t.val % 8 = 0) (h1 : t.val % 8 = 7) :
    (outsAt0 (F := Ideal) V c t.val t.isLt).1 = k0_pay2 (iblk0 V c 0 t) (iblk0 V c 1 t)
      (outsAt0 (F := Ideal) V c (t.val - 1) (Nat.lt_of_le_of_lt (Nat.sub_le _ _) t.isLt)).2 := by
  rw [outsAt0_C V c t h0 h1]
  dsimp only
  exact out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 (F := Ideal) V c (t.val - 1) (Nat.lt_of_le_of_lt (Nat.sub_le _ _) t.isLt)).2

/-! ## The accumulation -/

/-- After point `t` the accumulator holds, at (p, q), the chunks 0 … t % 8 of the sum for row block t / 8: by
    induction on the point, a first step starting from zero and every later step adding its chunk to what the point
    before left. -/
theorem enc_acc (c : Dev nD) : ∀ (n : ℕ) (t : Fin cfg0.N), t.val = n → ∀ (p q : Fin 512),
    (outsAt0 (F := Ideal) V c t.val t.isLt).2 (ix2 p q)
      = ∑ s ∈ Finset.range (t.val % 8 + 1), stepTerm (V c main_arg0) (V c main_v2) (t.val / 8) s p q := by
  intro n
  induction n using Nat.strong_induction_on with
  | _ n ih =>
    intro t ht p q
    by_cases h0 : t.val % 8 = 0
    · have h1 : ¬ t.val % 8 = 7 := by omega
      rw [enc_acc_A V c t h0 h1]
      refine (enc_step V c t.val t.isLt _ p q).trans ?_
      rw [enc_pay1_apply, zero_add, h0, Nat.zero_add, Finset.sum_range_one]
    · have hn' : t.val - 1 < cfg0.N := Nat.lt_of_le_of_lt (Nat.sub_le _ _) t.isLt
      have e2 : (outsAt0 (F := Ideal) V c t.val t.isLt).2
          = k0_pay2 (iblk0 V c 0 t) (iblk0 V c 1 t) (outsAt0 (F := Ideal) V c (t.val - 1) hn').2 := by
        by_cases h1 : t.val % 8 = 7
        · exact enc_acc_C V c t h0 h1
        · exact enc_acc_B V c t h0 h1
      rw [e2]
      refine (enc_step V c t.val t.isLt _ p q).trans ?_
      have ih' : (outsAt0 (F := Ideal) V c (t.val - 1) hn').2 (ix2 p q)
          = ∑ s ∈ Finset.range ((t.val - 1) % 8 + 1), stepTerm (V c main_arg0) (V c main_v2) ((t.val - 1) / 8) s p q :=
        ih (t.val - 1) (by omega) ⟨t.val - 1, hn'⟩ rfl p q
      rw [ih']
      have h8 : (t.val - 1) % 8 + 1 = t.val % 8 := by omega
      have hd : (t.val - 1) / 8 = t.val / 8 := by omega
      rw [h8, hd, Finset.sum_range_succ]

end Final

/-- The eight chunks of 512 contracted positions are the 4096: summed over the steps, the chunks give the whole
    row-by-column sum, `encG` at the row `512 * R + p` and column `q`. -/
theorem enc_chunks (x : FVec Ideal S4096x4096 .f32) (w : FVec Ideal S4096x512 .f32) (R : ℕ) (p q : Fin 512) :
    ∑ s ∈ Finset.range (7 + 1), stepTerm x w R s p q = encG x w (ix2 (at512 R p) q) := by
  show ∑ s ∈ Finset.range (7 + 1), ∑ k : Fin 512, x (ix2 (at512 R p) (at512 s k)) * w (ix2 (at512 s k) q)
      = ∑ k : Fin 4096, x (ix2 (at512 R p) k) * w (ix2 k q)
  refine enc_sum_chunks (7 + 1) rfl (fun s k => x (ix2 (at512 R p) (at512 s k)) * w (ix2 (at512 s k) q))
    (fun k => x (ix2 (at512 R p) k) * w (ix2 k q)) (fun s k => ?_)
  have e : at512 s.val k = ⟨512 * s.val + k.val, by have := s.isLt; have := k.isLt; omega⟩ :=
    Fin.ext (at512_val s.val s.isLt k)
  show x (ix2 (at512 R p) (at512 s.val k)) * w (ix2 (at512 s.val k) q) = _
  rw [e]

section Final2
variable (V : (c : Dev nD) → (b : Ref sig .tc) → Buf (Elt Ideal) ((c : Thread nD τ).loc b))

/-! ## The output block at a last step, and the array -/

/-- At a last step the output block holds, at (p, q), all eight chunks of the sum for the point's row block. -/
theorem enc_out_last (c : Dev nD) (t : Fin cfg0.N) (h7 : t.val % 8 = 7) (p q : Fin 512) :
    (outsAt0 (F := Ideal) V c t.val t.isLt).1 (ix2 p q)
      = ∑ s ∈ Finset.range (7 + 1), stepTerm (V c main_arg0) (V c main_v2) (t.val / 8) s p q := by
  have h0 : ¬ t.val % 8 = 0 := by omega
  rw [enc_out_C V c t h0 h7, ← enc_acc_C V c t h0 h7, enc_acc V c t.val t rfl p q, h7]

/-- So the output block at a last step is the point's block of `encG` of the two input arrays: the eight chunks of
    512 contracted positions are the 4096. -/
theorem enc_block_eq (c : Dev nD) (t : Fin cfg0.N) (h7 : t.val % 8 = 7) (j : S512x512.Idx) :
    (outsAt0 (F := Ideal) V c t.val t.isLt).1 j
      = encG (V c main_arg0) (V c main_v2) (((cfg0.win 2).blk t).view.emb j) := by
  obtain ⟨p, q, rfl⟩ : ∃ (p q : Fin 512), j = ix2 p q := ⟨j 0, j 1, eq_ix2 j⟩
  obtain ⟨-, -, -, -, f4, f5⟩ := enc_idx_facts t
  have hN : t.val < 64 := lt_of_lt_of_eq t.isLt (show cfg0.N = 64 from N_0)
  have hp := p.isLt
  have hq := q.isLt
  have he : ((cfg0.win 2).blk t).view.emb (ix2 p q) = (ix2 (at512 (t.val / 8) p) q : S4096x512.Idx) := by
    funext a; apply Fin.ext
    match a with
    | ⟨0, _⟩ => show win0_2.index t (0 : Fin 2) * 512 + 1 * p.val = (512 * (t.val / 8) + p.val) % 4096; omega
    | ⟨1, _⟩ => show win0_2.index t (1 : Fin 2) * 512 + 1 * q.val = q.val; omega
  rw [he, enc_out_last V c t h7 p q]
  exact enc_chunks (V c main_arg0) (V c main_v2) (t.val / 8) p q

/-- What a last-step point writes back is its block of `encG` of the two input arrays as the region finds them. -/
theorem enc_flushed_eq (c : Dev nD) (t : Fin cfg0.N) (hf : (cfg0.win 2).flush t = true) :
    (dat0 (F := Ideal) V c).flushed 2 t
      = ((cfg0.win 2).blk t).view.read (Elt Ideal) (encG (V c main_arg0) (V c main_v2)) := by
  have h7 : t.val % 8 = 7 := (flush0_2 t).mp hf
  show (cfg0.win 2).cut (grid0.coords t) ((dat0 (F := Ideal) V c).after 2 t) = _
  rw [after0_2]
  funext j
  exact enc_block_eq V c t h7 j

/-- An index of the output array is in point `t`'s block iff each coordinate is in the block's range on its axis. -/
theorem enc_mem_blk (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v3).slice (win0_2.rect t)).set ↔ _
  rw [View.set_slice_whole, Rect.mem_set_unit]
  exact Iff.rfl

/-- The eight row blocks tile the output array, and each is written back at its row block's last step: row r is in
    the block of the last-step point of row block r / 512. -/
theorem enc_cover (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, h7, ht⟩ := enc_idx_onto ⟨(i 0).val / 512, by omega⟩
  have q0 : win0_2.index t (0 : Fin 2) = (i 0).val / 512 := congrFun ht 0
  have q1 : win0_2.index t (1 : Fin 2) = 0 := congrFun ht 1
  refine ⟨t, (flush0_2 t).mpr h7, ?_⟩
  rw [enc_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE OUTPUT ARRAY after the region: `encG` of the two input arrays as the region finds them. -/
theorem enc_final (c : Dev nD) :
    (dat0 (F := Ideal) V c).arrAt 2 cfg0.N = encG (V c main_arg0) (V c main_v2) :=
  (dat0 (F := Ideal) V c).arrAt_eq_of_cover 2 (encG (V c main_arg0) (V c main_v2))
    (fun t hf => enc_flushed_eq V c t hf) enc_cover

end Final2

end Cert.KernelIdeal.HandValue

end
-- ==== Proof.Glue.lean ====
/-
  The host operations around the two regions, as pure functions of the arrays they read, and the reading lemmas:
  over ANY contents `W` of the device's buffers, the buffer a stretch of host operations wrote holds the stretch's
  composed function of the buffers it read in `W`.
  * `kwcat a3 a5`       — the two [4096,200] weight arrays each zero-padded to 256 columns, side by side ([4096,512]);
  * `kzpad hr a1 a2 a4` — from the [4096,512] product `hr`: columns 0..199 gathered along the edges' sources, scaled by
    the edge weights, summed into the edges' destinations, plus the bias row, plus columns 256..455 of `hr`, clamped
    below at 0, zero-padded to 256 columns;
  * `kwdec a6`          — the [200,4096] decoder weights zero-padded to 256 rows;
  * `kb2d a7`           — the [4096] decoder bias as one row [1,4096].
  The message-passing chain between the two slices of `hr` and the clamp is kept as ONE function `kchain` of the two
  slices (and the edge arrays and the bias): nothing below ever opens its gather or its scatter.
-/
import proofs.«147354_j1314259992767_1_alg».proof.Proof.Gen.KernelIdeal.Launch
import Idealize.ShloMosaic.Lib.StableHlo.Run
import Idealize.ShloMosaic.PureOps.Ideal

noncomputable section

namespace Cert.KernelIdeal.HandValue

open Idealize.ShloMosaic Idealize.ShloMosaic.TcCoe Idealize.ShloMosaic.StableHlo Cert.KernelIdeal Cert.KernelIdeal.Gen

/-! ## Before the first region: the concatenated padded weights -/

/-- A [4096,200] array with 56 columns of the converted integer zero appended. -/
def kpad200 (x : (⟨S4096x200, .f32⟩ : BufTy).Contents (Elt Ideal)) : (⟨S4096x256, .f32⟩ : BufTy).Contents (Elt Ideal) :=
  pad S4096x256 ![0, 0] ![0, 56] ![0, 0] x (sitofp (F := Ideal) .f32 (constantI S_ 32 0#32)) pads_S4096x200_S4096x256_000_0560 h_S_

/-- The two padded weight arrays side by side. -/
def kwcat (a3 a5 : (⟨S4096x200, .f32⟩ : BufTy).Contents (Elt Ideal)) : (⟨S4096x512, .f32⟩ : BufTy).Contents (Elt Ideal) :=
  concatenate S4096x512 1 [⟨S4096x256, kpad200 a3⟩, ⟨S4096x256, kpad200 a5⟩] concatenates_S4096x256_S4096x256_S4096x512_d1

theorem read_v2 (W : Valuation τ sig (Elt Ideal)) :
    StableHlo.after hostOps0_4 (StableHlo.after hostOps0_3 (StableHlo.after hostOps0_2 (StableHlo.after hostOps0_1
      (StableHlo.after hostOps0 W)))) (Proc.devRef .tc main_v2)
      = kwcat (W (Proc.devRef .tc main_arg3)) (W (Proc.devRef .tc main_arg5)) := by
  unfold kwcat kpad200
  after_results
  rfl

/-! ## Between the regions -/

/-- Row 0 of the edge array (the sources), as a flat array. -/
def ksrc (a1 : (⟨S2x65536, .i32⟩ : BufTy).Contents (Elt Ideal)) : (⟨S65536, .i32⟩ : BufTy).Contents (Elt Ideal) :=
  shapeCast _ (extractStridedSlice S1x65536 ![0, 0] a1 slices_S2x65536_S1x65536_0_0) shapeCasts_S1x65536_S65536

/-- Row 1 of the edge array (the destinations), as a flat array. -/
def kdst (a1 : (⟨S2x65536, .i32⟩ : BufTy).Contents (Elt Ideal)) : (⟨S65536, .i32⟩ : BufTy).Contents (Elt Ideal) :=
  shapeCast _ (extractStridedSlice S1x65536 ![1, 0] a1 slices_S2x65536_S1x65536_1_0) shapeCasts_S1x65536_S65536

/-- The chain shared with the reference, as one function of its two [4096,200] inputs `h` (the rows that are gathered)
    and `root` (the term added at the end): gather `h` at the sources (a negative source counted from the end), scale by
    the edge weights, sum into the destinations starting from zero, add the bias row, add `root`, clamp below at zero. -/
def kchain (h root : (⟨S4096x200, .f32⟩ : BufTy).Contents (Elt Ideal))
    (a1 : (⟨S2x65536, .i32⟩ : BufTy).Contents (Elt Ideal)) (a2 : (⟨S65536, .f32⟩ : BufTy).Contents (Elt Ideal))
    (a4 : (⟨S200, .f32⟩ : BufTy).Contents (Elt Ideal)) : (⟨S4096x200, .f32⟩ : BufTy).Contents (Elt Ideal) :=
  maximumf
    (addf
      (addf
        (Host.scatterAdd scatter_S4096x200_S65536x1_S65536x200_1_0_0_1
          (broadcastInDim S4096x200 ![] bcast_S_S4096x200 (constant (F := Ideal) S_ .f32 0x00000000#32))
          (broadcastInDim S65536x1 ![0] bcast_S65536_S65536x1_0 (kdst a1))
          (mulf
            (Host.gather gather_S4096x200_S65536x1_S65536x200_1_0_n_n_0_1_1200 h
              (broadcastInDim S65536x1 ![0] bcast_S65536_S65536x1_0
                (select (cmpi .slt (ksrc a1) (broadcastInDim S65536 ![] bcast_S_S65536 (constantI S_ 32 0#32)))
                  (addi (ksrc a1) (broadcastInDim S65536 ![] bcast_S_S65536 (constantI S_ 32 4096#32)))
                  (ksrc a1))))
            (broadcastInDim S65536x200 ![0, 1] bcast_S65536x1_S65536x200_0_1
              (broadcastInDim S65536x1 ![0] bcast_S65536_S65536x1_0 a2))))
        (broadcastInDim S4096x200 ![0, 1] bcast_S1x200_S4096x200_0_1 (broadcastInDim S1x200 ![1] bcast_S200_S1x200_1 a4)))
      root)
    (broadcastInDim S4096x200 ![] bcast_S_S4096x200 (constant (F := Ideal) S_ .f32 0x00000000#32))

/-- The decoder's left operand: the chain on the two slices of the first region's result, padded to 256 columns. -/
def kzpad (hr : (⟨S4096x512, .f32⟩ : BufTy).Contents (Elt Ideal))
    (a1 : (⟨S2x65536, .i32⟩ : BufTy).Contents (Elt Ideal)) (a2 : (⟨S65536, .f32⟩ : BufTy).Contents (Elt Ideal))
    (a4 : (⟨S200, .f32⟩ : BufTy).Contents (Elt Ideal)) : (⟨S4096x256, .f32⟩ : BufTy).Contents (Elt Ideal) :=
  kpad200 (kchain (extractStridedSlice S4096x200 ![0, 0] hr slices_S4096x512_S4096x200_0_0)
    (extractStridedSlice S4096x200 ![0, 256] hr slices_S4096x512_S4096x200_0_256) a1 a2 a4)

/-- The decoder's weights with 56 rows of the converted integer zero appended. -/
def kwdec (a6 : (⟨S200x4096, .f32⟩ : BufTy).Contents (Elt Ideal)) : (⟨S256x4096, .f32⟩ : BufTy).Contents (Elt Ideal) :=
  pad S256x4096 ![0, 0] ![56, 0] ![0, 0] a6 (sitofp (F := Ideal) .f32 (constantI S_ 32 0#32)) pads_S200x4096_S256x4096_0560_000 h_S_

/-- The decoder's bias as one row. -/
def kb2d (a7 : (⟨S4096, .f32⟩ : BufTy).Contents (Elt Ideal)) : (⟨S1x4096, .f32⟩ : BufTy).Contents (Elt Ideal) :=
  shapeCast _ a7 shapeCasts_S4096_S1x4096

set_option maxHeartbeats 1000000 in
theorem read_v28 (W : Valuation τ sig (Elt Ideal)) :
    StableHlo.after hostOps1_6 (StableHlo.after hostOps1_5 (StableHlo.after hostOps1_4 (StableHlo.after hostOps1_3
      (StableHlo.after hostOps1_2 (StableHlo.after hostOps1_1 (StableHlo.after hostOps1 W)))))) (Proc.devRef .tc main_v28)
      = kzpad (W (Proc.devRef .tc main_v3)) (W (Proc.devRef .tc main_arg1)) (W (Proc.devRef .tc main_arg2))
          (W (Proc.devRef .tc main_arg4)) := by
  unfold kzpad kpad200 kchain ksrc kdst
  after_results_simp <;> rfl

theorem read_v29 (W : Valuation τ sig (Elt Ideal)) :
    StableHlo.after hostOps1_6 (StableHlo.after hostOps1_5 (StableHlo.after hostOps1_4 (StableHlo.after hostOps1_3
      (StableHlo.after hostOps1_2 (StableHlo.after hostOps1_1 (StableHlo.after hostOps1 W)))))) (Proc.devRef .tc main_v29)
      = kwdec (W (Proc.devRef .tc main_arg6)) := by
  unfold kwdec
  after_results_simp <;> rfl

theorem read_v30 (W : Valuation τ sig (Elt Ideal)) :
    StableHlo.after hostOps1_6 (StableHlo.after hostOps1_5 (StableHlo.after hostOps1_4 (StableHlo.after hostOps1_3
      (StableHlo.after hostOps1_2 (StableHlo.after hostOps1_1 (StableHlo.after hostOps1 W)))))) (Proc.devRef .tc main_v30)
      = kb2d (W (Proc.devRef .tc main_arg7)) := by
  unfold kb2d
  after_results_simp <;> rfl

end Cert.KernelIdeal.HandValue

end
-- ==== Proof.GlueRead.lean ====
/-
  The host stretches read at an index: the zero-padded arrays (inside: the operand; outside: zero), the bias row, the
  side-by-side padded weights, and the two column slices of a [4096,512] array.
-/
import proofs.«147354_j1314259992767_1_alg».proof.Proof.Glue
import Idealize.ShloMosaic.Lib.KernelVsHost

noncomputable section

namespace Cert.KernelIdeal.HandValue

open Idealize.ShloMosaic Idealize.ShloMosaic.ValueIdx Cert.KernelIdeal Cert.KernelIdeal.Gen

/-- The padding value — the integer zero converted — is zero. -/
theorem kpadval : (sitofp (F := Ideal) .f32 (constantI S_ 32 0#32)) (Shape.Idx.first h_S_) = (0 : EReal) := by
  show ((((0#32 : BitVec 32).toInt : ℤ) : ℝ) : EReal) = 0
  simp

/-- The column-padded array at (r, c): the operand for c < 200, zero beyond. -/
theorem kpad200_apply (x : (⟨S4096x200, .f32⟩ : BufTy).Contents (Elt Ideal)) (r : Fin 4096) (c : Fin 256) :
    kpad200 x (ix2 r c) = if h : c.val < 200 then x (ix2 r (⟨c.val, h⟩ : Fin 200)) else (0 : EReal) := by
  unfold kpad200
  by_cases h : c.val < 200
  · rw [dif_pos h]
    exact pad_apply_of_inside _ _ _ x _ pads_S4096x200_S4096x256_000_0560 h_S_ (ix2 r c) (ix2 r (⟨c.val, h⟩ : Fin 200))
      (fun a => match a with
        | ⟨0, _⟩ => by show r.val = 0 + r.val * (0 + 1); omega
        | ⟨1, _⟩ => by show c.val = 0 + c.val * (0 + 1); omega)
  · rw [dif_neg h]
    refine (pad_apply_of_not_inside _ _ _ x _ pads_S4096x200_S4096x256_000_0560 h_S_ (ix2 r c) (1 : Fin 2) ?_).trans kpadval
    show ¬(0 ≤ c.val ∧ (c.val - 0) % (0 + 1) = 0 ∧ (c.val - 0) / (0 + 1) < 200)
    omega

/-- The row-padded decoder weights at (k, q): the operand for k < 200, zero beyond. -/
theorem kwdec_apply (a6 : (⟨S200x4096, .f32⟩ : BufTy).Contents (Elt Ideal)) (k : Fin 256) (q : Fin 4096) :
    kwdec a6 (ix2 k q) = if h : k.val < 200 then a6 (ix2 (⟨k.val, h⟩ : Fin 200) q) else (0 : EReal) := by
  unfold kwdec
  by_cases h : k.val < 200
  · rw [dif_pos h]
    exact pad_apply_of_inside _ _ _ a6 _ pads_S200x4096_S256x4096_0560_000 h_S_ (ix2 k q) (ix2 (⟨k.val, h⟩ : Fin 200) q)
      (fun a => match a with
        | ⟨0, _⟩ => by show k.val = 0 + k.val * (0 + 1); omega
        | ⟨1, _⟩ => by show q.val = 0 + q.val * (0 + 1); omega)
  · rw [dif_neg h]
    refine (pad_apply_of_not_inside _ _ _ a6 _ pads_S200x4096_S256x4096_0560_000 h_S_ (ix2 k q) (0 : Fin 2) ?_).trans kpadval
    show ¬(0 ≤ k.val ∧ (k.val - 0) % (0 + 1) = 0 ∧ (k.val - 0) / (0 + 1) < 200)
    omega

/-- The bias row at (0, q) is the bias at q. -/
theorem kb2d_apply (a7 : (⟨S4096, .f32⟩ : BufTy).Contents (Elt Ideal)) (q : Fin 4096) :
    kb2d a7 (ix2 (0 : Fin 1) q) = a7 (ix1 q) := by
  unfold kb2d
  exact shapeCast_apply a7 shapeCasts_S4096_S1x4096 (ix2 (0 : Fin 1) q) (ix1 q)
    (by rewrite [Shape.rowMajor_val_two, Shape.rowMajor_val_one]; show q.val = 0 * 4096 + q.val; omega)

/-- The side-by-side padded weights at a column of the first half. -/
theorem kwcat_apply_left (a3 a5 : (⟨S4096x200, .f32⟩ : BufTy).Contents (Elt Ideal)) (k : Fin 4096) (c : Fin 512)
    (hc : c.val < 256) : kwcat a3 a5 (ix2 k c) = kpad200 a3 (ix2 k (⟨c.val, hc⟩ : Fin 256)) := by
  unfold kwcat
  exact concatenate_pair_apply_left (1 : Fin 2) (kpad200 a3) (kpad200 a5) concatenates_S4096x256_S4096x256_S4096x512_d1
    (ix2 k c) rfl (ix2 k (⟨c.val, hc⟩ : Fin 256)) (fun b => match b with
      | ⟨0, _⟩ => rfl
      | ⟨1, _⟩ => rfl)

/-- The side-by-side padded weights at a column of the second half. -/
theorem kwcat_apply_right (a3 a5 : (⟨S4096x200, .f32⟩ : BufTy).Contents (Elt Ideal)) (k : Fin 4096) (c : Fin 512)
    (hc : 256 ≤ c.val) : kwcat a3 a5 (ix2 k c) = kpad200 a5 (ix2 k (⟨c.val - 256, by have := c.isLt; omega⟩ : Fin 256)) := by
  unfold kwcat
  exact concatenate_pair_apply_right (1 : Fin 2) (kpad200 a3) (kpad200 a5) concatenates_S4096x256_S4096x256_S4096x512_d1
    (ix2 k c) rfl rfl (ix2 k (⟨c.val - 256, by have := c.isLt; omega⟩ : Fin 256)) (fun b => match b with
      | ⟨0, _⟩ => fun _ => rfl
      | ⟨1, _⟩ => fun hb => absurd rfl hb)
    (by show c.val - 256 + 256 = c.val; omega)

/-- Columns 0..199 of a [4096,512] array. -/
theorem slice0_apply (hr : (⟨S4096x512, .f32⟩ : BufTy).Contents (Elt Ideal)) (r : Fin 4096) (j : Fin 200) :
    extractStridedSlice S4096x200 ![0, 0] hr slices_S4096x512_S4096x200_0_0 (ix2 r j)
      = hr (ix2 r (⟨j.val, by have := j.isLt; omega⟩ : Fin 512)) :=
  extractStridedSlice_apply ![0, 0] hr slices_S4096x512_S4096x200_0_0 (ix2 r j) (ix2 r (⟨j.val, by have := j.isLt; omega⟩ : Fin 512))
    (fun a => match a with
      | ⟨0, _⟩ => by show r.val = 0 + r.val; omega
      | ⟨1, _⟩ => by show j.val = 0 + j.val; omega)

/-- Columns 256..455 of a [4096,512] array. -/
theorem slice256_apply (hr : (⟨S4096x512, .f32⟩ : BufTy).Contents (Elt Ideal)) (r : Fin 4096) (j : Fin 200) :
    extractStridedSlice S4096x200 ![0, 256] hr slices_S4096x512_S4096x200_0_256 (ix2 r j)
      = hr (ix2 r (⟨256 + j.val, by have := j.isLt; omega⟩ : Fin 512)) :=
  extractStridedSlice_apply ![0, 256] hr slices_S4096x512_S4096x200_0_256 (ix2 r j) (ix2 r (⟨256 + j.val, by have := j.isLt; omega⟩ : Fin 512))
    (fun a => match a with
      | ⟨0, _⟩ => by show r.val = 0 + r.val; omega
      | ⟨1, _⟩ => by show 256 + j.val = 256 + j.val; rfl)

end Cert.KernelIdeal.HandValue

end
-- ==== Proof.RefIsG.lean ====
/-
  The reference read against the kernel's vocabulary.
  * `ref_chain`: the reference's hidden layer (its relu) is the shared chain `kchain` applied to the reference's two
    products x·W_rel and x·W_root — the same host operations on both sides, compared as one function and never opened.
  * `enc_left` / `enc_right`: columns 0..199 and 256..455 of the encoder's product of x by the side-by-side padded
    weights ARE the reference's two products: at such a column the padded weights are W_rel (resp. W_root).
  * `ref_at`: the reference's result at (r, q) is the sum over the 200 hidden units of hidden(r, k) * W_dec(k, q),
    plus b_dec(q).
-/
import proofs.«147354_j1314259992767_1_alg».proof.Proof.Gen.ReferenceIdeal.Read
import proofs.«147354_j1314259992767_1_alg».proof.Proof.Spec
import proofs.«147354_j1314259992767_1_alg».proof.Proof.GlueRead

noncomputable section

open scoped BigOperators

namespace Cert.KernelIdeal.HandValue

open Idealize.ShloMosaic Idealize.ShloMosaic.ValueIdx Cert.KernelIdeal Cert.KernelIdeal.Gen
open Cert.ReferenceIdeal.Read (val_main_v4 val_main_v21 val_main_v23 val_main_v27)

/-- The reference's hidden layer is the shared chain on its two products. -/
theorem ref_chain (a0 : (⟨S4096x4096, .f32⟩ : BufTy).Contents (Elt Ideal)) (a1 : (⟨S2x65536, .i32⟩ : BufTy).Contents (Elt Ideal))
    (a2 : (⟨S65536, .f32⟩ : BufTy).Contents (Elt Ideal)) (a3 : (⟨S4096x200, .f32⟩ : BufTy).Contents (Elt Ideal))
    (a4 : (⟨S200, .f32⟩ : BufTy).Contents (Elt Ideal)) (a5 : (⟨S4096x200, .f32⟩ : BufTy).Contents (Elt Ideal)) :
    val_main_v23 (F := Ideal) a0 a1 a2 a3 a4 a5
      = kchain (val_main_v4 (F := Ideal) a0 a3) (val_main_v21 (F := Ideal) a0 a5) a1 a2 a4 := by
  generalize hh : val_main_v4 (F := Ideal) a0 a3 = h
  generalize hroot : val_main_v21 (F := Ideal) a0 a5 = root
  unfold val_main_v23 Cert.ReferenceIdeal.Read.val_main_v22 Cert.ReferenceIdeal.Read.val_main_v20
    Cert.ReferenceIdeal.Read.val_main_v17 Cert.ReferenceIdeal.Read.val_main_v14 Cert.ReferenceIdeal.Read.val_main_v11
  rw [hh, hroot]
  rfl

/-- Columns 0..199 of the encoder's product are the reference's x·W_rel. -/
theorem enc_left (a0 : (⟨S4096x4096, .f32⟩ : BufTy).Contents (Elt Ideal))
    (a3 a5 : (⟨S4096x200, .f32⟩ : BufTy).Contents (Elt Ideal)) :
    extractStridedSlice S4096x200 ![0, 0] (encG a0 (kwcat a3 a5)) slices_S4096x512_S4096x200_0_0
      = val_main_v4 (F := Ideal) a0 a3 := by
  funext i
  obtain ⟨r, j, rfl⟩ : ∃ (r : Fin 4096) (j : Fin 200), i = ix2 r j := ⟨i 0, i 1, eq_ix2 i⟩
  have hj : j.val < 512 := by have := j.isLt; omega
  have hj' : j.val < 256 := by have := j.isLt; omega
  rw [slice0_apply, Cert.ReferenceIdeal.Read.val_main_v4_apply]
  show ∑ k : Fin 4096, a0 (ix2 r k) * kwcat a3 a5 (ix2 k (⟨j.val, hj⟩ : Fin 512)) = _
  refine Finset.sum_congr rfl fun k _ => ?_
  rw [kwcat_apply_left a3 a5 k ⟨j.val, hj⟩ hj', kpad200_apply, dif_pos (show j.val < 200 from j.isLt)]
  refine congrArg₂ (· * ·) (congrArg a0 ?_) (congrArg a3 ?_)
  · exact funext fun a => Fin.ext (by match a with | ⟨0, _⟩ => rfl | ⟨1, _⟩ => rfl)
  · exact funext fun a => Fin.ext (by match a with | ⟨0, _⟩ => rfl | ⟨1, _⟩ => rfl)

/-- Columns 256..455 of the encoder's product are the reference's x·W_root. -/
theorem enc_right (a0 : (⟨S4096x4096, .f32⟩ : BufTy).Contents (Elt Ideal))
    (a3 a5 : (⟨S4096x200, .f32⟩ : BufTy).Contents (Elt Ideal)) :
    extractStridedSlice S4096x200 ![0, 256] (encG a0 (kwcat a3 a5)) slices_S4096x512_S4096x200_0_256
      = val_main_v21 (F := Ideal) a0 a5 := by
  funext i
  obtain ⟨r, j, rfl⟩ : ∃ (r : Fin 4096) (j : Fin 200), i = ix2 r j := ⟨i 0, i 1, eq_ix2 i⟩
  have hj : 256 + j.val < 512 := by have := j.isLt; omega
  have hj' : 256 + j.val - 256 < 200 := by have := j.isLt; omega
  rw [slice256_apply, Cert.ReferenceIdeal.Read.val_main_v21_apply]
  show ∑ k : Fin 4096, a0 (ix2 r k) * kwcat a3 a5 (ix2 k (⟨256 + j.val, hj⟩ : Fin 512)) = _
  refine Finset.sum_congr rfl fun k _ => ?_
  rw [kwcat_apply_right a3 a5 k ⟨256 + j.val, hj⟩ (Nat.le_add_right 256 j.val), kpad200_apply, dif_pos hj']
  refine congrArg₂ (· * ·) (congrArg a0 ?_) (congrArg a5 ?_)
  · exact funext fun a => Fin.ext (by match a with | ⟨0, _⟩ => rfl | ⟨1, _⟩ => rfl)
  · exact funext fun a => Fin.ext (by
      match a with
      | ⟨0, _⟩ => rfl
      | ⟨1, _⟩ => show 256 + j.val - 256 = j.val; omega)

/-- The reference's result at (r, q): the hidden layer's row r against column q of W_dec, plus b_dec(q). -/
theorem ref_at (a0 : (⟨S4096x4096, .f32⟩ : BufTy).Contents (Elt Ideal)) (a1 : (⟨S2x65536, .i32⟩ : BufTy).Contents (Elt Ideal))
    (a2 : (⟨S65536, .f32⟩ : BufTy).Contents (Elt Ideal)) (a3 : (⟨S4096x200, .f32⟩ : BufTy).Contents (Elt Ideal))
    (a4 : (⟨S200, .f32⟩ : BufTy).Contents (Elt Ideal)) (a5 : (⟨S4096x200, .f32⟩ : BufTy).Contents (Elt Ideal))
    (a6 : (⟨S200x4096, .f32⟩ : BufTy).Contents (Elt Ideal)) (a7 : (⟨S4096, .f32⟩ : BufTy).Contents (Elt Ideal))
    (r q : Fin 4096) :
    val_main_v27 (F := Ideal) a0 a1 a2 a3 a4 a5 a6 a7 (ix2 r q)
      = (∑ k : Fin 200, val_main_v23 (F := Ideal) a0 a1 a2 a3 a4 a5 (ix2 r k) * a6 (ix2 k q)) + a7 (ix1 q) := by
  rw [Cert.ReferenceIdeal.Read.val_main_v27_apply, Cert.ReferenceIdeal.Read.val_main_v24_apply,
    Cert.ReferenceIdeal.Read.val_main_v26_apply, Cert.ReferenceIdeal.Read.val_main_v25_apply, Ideal.addf_def]
  generalize val_main_v23 (F := Ideal) a0 a1 a2 a3 a4 a5 = z
  refine congrArg₂ (· + ·) (Finset.sum_congr rfl fun k _ => congrArg₂ (· * ·) (congrArg z ?_) (congrArg a6 ?_)) (congrArg a7 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

end Cert.KernelIdeal.HandValue

end
-- ==== Proof.LibPadDot.lean ====
/-
  General lemmas on finite sums with a zero tail, generic in the sizes.
  * `sum_eq_sum_castLE_of_tail_zero`: a sum over `Fin m` whose terms vanish from position `n` on is the sum of its
    first `n` terms (any commutative additive monoid).
  * `sum_mul_of_padded`: the dot product of two length-`m` families that are length-`n` families followed by zeros
    is the dot product of the length-`n` families: each extra product is `0 * 0`, which is `0` (any commutative additive
    monoid with a multiplication in which `0 * 0 = 0`; in particular the extended reals, where no finiteness is needed).
-/
import Mathlib.Algebra.BigOperators.Fin

open scoped BigOperators

namespace Cert.KernelIdeal.HandValue.LibPadDot

/-- A sum over `Fin m` whose terms vanish from position `n` on is the sum of its first `n` terms. -/
theorem sum_eq_sum_castLE_of_tail_zero {M : Type*} [AddCommMonoid M] {n m : ℕ} (h : n ≤ m) (f : Fin m → M)
    (hz : ∀ k : Fin m, n ≤ k.val → f k = 0) : ∑ k : Fin m, f k = ∑ k : Fin n, f (Fin.castLE h k) := by
  have hmap : ∑ k : Fin n, f (Fin.castLE h k) = ∑ k ∈ (Finset.univ : Finset (Fin n)).map (Fin.castLEEmb h), f k := by
    rw [Finset.sum_map]; rfl
  rw [hmap]
  symm
  refine Finset.sum_subset (Finset.subset_univ _) fun k _ hk => hz k ?_
  by_contra hlt
  refine hk (Finset.mem_map.2 ⟨⟨k.val, Nat.lt_of_not_le hlt⟩, Finset.mem_univ _, Fin.ext rfl⟩)

/-- The dot product of two zero-padded families is the dot product of the families. -/
theorem sum_mul_of_padded {M : Type*} [AddCommMonoid M] [Mul M] (h00 : (0 : M) * 0 = 0) {n m : ℕ} (h : n ≤ m)
    (u v : Fin m → M) (u' v' : Fin n → M)
    (hu : ∀ k : Fin m, u k = if hk : k.val < n then u' ⟨k.val, hk⟩ else 0)
    (hv : ∀ k : Fin m, v k = if hk : k.val < n then v' ⟨k.val, hk⟩ else 0) :
    ∑ k : Fin m, u k * v k = ∑ k : Fin n, u' k * v' k := by
  rw [sum_eq_sum_castLE_of_tail_zero h (fun k => u k * v k) fun k hk => by
    rw [hu k, hv k, dif_neg (Nat.not_lt.2 hk), dif_neg (Nat.not_lt.2 hk)]; exact h00]
  refine Finset.sum_congr rfl fun k _ => ?_
  rw [hu (Fin.castLE h k), hv (Fin.castLE h k), dif_pos (show (Fin.castLE h k).val < n from k.isLt),
    dif_pos (show (Fin.castLE h k).val < n from k.isLt)]
  rfl

end Cert.KernelIdeal.HandValue.LibPadDot
-- ==== Proof.DecPad.lean ====
/-
  The decoder's value on zero-padded operands: with the hidden layer padded from 200 to 256 columns and the weights
  from 200 to 256 rows, each of the 56 extra products is 0 * 0 = 0, so the 256-term sum is the 200-term sum; the
  bias row read at (0, q) is the bias at q.
-/
import proofs.«147354_j1314259992767_1_alg».proof.Proof.Spec
import proofs.«147354_j1314259992767_1_alg».proof.Proof.GlueRead
import proofs.«147354_j1314259992767_1_alg».proof.Proof.LibPadDot

noncomputable section

open scoped BigOperators

namespace Cert.KernelIdeal.HandValue

open Idealize.ShloMosaic Idealize.ShloMosaic.ValueIdx Cert.KernelIdeal Cert.KernelIdeal.Gen

/-- The decoder on the padded hidden layer, padded weights and bias row, at (r, q). -/
theorem dec_padded (z : (⟨S4096x200, .f32⟩ : BufTy).Contents (Elt Ideal)) (a6 : (⟨S200x4096, .f32⟩ : BufTy).Contents (Elt Ideal))
    (a7 : (⟨S4096, .f32⟩ : BufTy).Contents (Elt Ideal)) (r q : Fin 4096) :
    decG (kpad200 z) (kwdec a6) (kb2d a7) (ix2 r q)
      = (∑ k : Fin 200, z (ix2 r k) * a6 (ix2 k q)) + a7 (ix1 q) := by
  show (∑ k : Fin 256, kpad200 z (ix2 r k) * kwdec a6 (ix2 k q)) + kb2d a7 (ix2 (0 : Fin 1) q) = _
  exact congrArg₂ (· + ·)
    (LibPadDot.sum_mul_of_padded (mul_zero (0 : EReal)) (by decide : 200 ≤ 256)
      (fun k => kpad200 z (ix2 r k)) (fun k => kwdec a6 (ix2 k q)) (fun k => z (ix2 r k)) (fun k => a6 (ix2 k q))
      (fun k => kpad200_apply z r k) (fun k => kwdec_apply a6 k q))
    (kb2d_apply a7 q)

end Cert.KernelIdeal.HandValue

end
-- ==== Proof.Bridge.lean ====
/-
  The bridge: the kernel program's value — the decoder's function of (the padded shared chain on the two slices of
  the encoder's product, the padded decoder weights, the bias row) — is the reference's result.
  At (r, q): the two slices of the encoder's product are the reference's x·W_rel and x·W_root, so the chain's value
  is the reference's hidden layer; the decoder's 256-term sum over the padded operands is the reference's 200-term
  sum; the bias row at (0, q) is b_dec(q).
-/
import proofs.«147354_j1314259992767_1_alg».proof.Proof.RefIsG
import proofs.«147354_j1314259992767_1_alg».proof.Proof.DecPad

noncomputable section

open scoped BigOperators

namespace Cert.KernelIdeal.HandValue

open Idealize.ShloMosaic Idealize.ShloMosaic.ValueIdx Cert.KernelIdeal Cert.KernelIdeal.Gen

theorem bridge (a0 : (⟨S4096x4096, .f32⟩ : BufTy).Contents (Elt Ideal)) (a1 : (⟨S2x65536, .i32⟩ : BufTy).Contents (Elt Ideal))
    (a2 : (⟨S65536, .f32⟩ : BufTy).Contents (Elt Ideal)) (a3 : (⟨S4096x200, .f32⟩ : BufTy).Contents (Elt Ideal))
    (a4 : (⟨S200, .f32⟩ : BufTy).Contents (Elt Ideal)) (a5 : (⟨S4096x200, .f32⟩ : BufTy).Contents (Elt Ideal))
    (a6 : (⟨S200x4096, .f32⟩ : BufTy).Contents (Elt Ideal)) (a7 : (⟨S4096, .f32⟩ : BufTy).Contents (Elt Ideal)) :
    decG (kzpad (encG a0 (kwcat a3 a5)) a1 a2 a4) (kwdec a6) (kb2d a7)
      = Cert.ReferenceIdeal.Read.val_main_v27 (F := Ideal) a0 a1 a2 a3 a4 a5 a6 a7 := by
  funext i
  obtain ⟨r, q, rfl⟩ : ∃ (r q : Fin 4096), i = ix2 r q := ⟨i 0, i 1, eq_ix2 i⟩
  rw [ref_at, ref_chain]
  unfold kzpad
  rw [enc_left, enc_right]
  exact dec_padded _ a6 a7 r q

end Cert.KernelIdeal.HandValue

end
-- ==== Proof.KernelValue.lean ====
/-
  The idealized kernel program's result as the reference's term. The result buffer ends at the decoder region's
  final array, which is the plain product-plus-bias of the three arrays the region is entered with; those are the
  seven host stretches' terms of the encoder region's final array and of the arguments; the encoder's final array
  is the plain product of the first argument with the two padded weight matrices laid side by side; and that
  composed term is the reference's.
-/
import proofs.«147354_j1314259992767_1_alg».proof.Proof.KI.Run
import proofs.«147354_j1314259992767_1_alg».proof.Proof.DecValue
import proofs.«147354_j1314259992767_1_alg».proof.Proof.EncValue
import proofs.«147354_j1314259992767_1_alg».proof.Proof.Glue
import proofs.«147354_j1314259992767_1_alg».proof.Proof.Bridge

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-- No stretch before the encoder region writes the first argument. -/
theorem V5_arg0 (c : Dev nD) : V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans rfl
/-- Nothing up to the encoder region's exit writes argument 1. -/
theorem V6_arg1 (c : Dev nD) : V6 m (outsA m) c main_arg1 = m ((c : Thread nD τ).loc main_arg1) :=
  (V6_of m (outsA m) c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
/-- Nothing up to the encoder region's exit writes argument 2. -/
theorem V6_arg2 (c : Dev nD) : V6 m (outsA m) c main_arg2 = m ((c : Thread nD τ).loc main_arg2) :=
  (V6_of m (outsA m) c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
/-- Nothing up to the encoder region's exit writes argument 4. -/
theorem V6_arg4 (c : Dev nD) : V6 m (outsA m) c main_arg4 = m ((c : Thread nD τ).loc main_arg4) :=
  (V6_of m (outsA m) c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
/-- Nothing up to the encoder region's exit writes argument 6. -/
theorem V6_arg6 (c : Dev nD) : V6 m (outsA m) c main_arg6 = m ((c : Thread nD τ).loc main_arg6) :=
  (V6_of m (outsA m) c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
/-- Nothing up to the encoder region's exit writes argument 7. -/
theorem V6_arg7 (c : Dev nD) : V6 m (outsA m) c main_arg7 = m ((c : Thread nD τ).loc main_arg7) :=
  (V6_of m (outsA m) c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl

/-- The encoder region's result buffer, after the region, as a function of the arguments. -/
theorem enc_value (c : Dev nD) :
    V6 m (outsA m) c main_v3
      = encG (m ((c : Thread nD τ).loc main_arg0)) (kwcat (m ((c : Thread nD τ).loc main_arg3)) (m ((c : Thread nD τ).loc main_arg5))) := by
  rw [← V6_outs m c, V6_v3 m c, enc_final (VE0 m) c]
  rw [show VE0 m c main_arg0 = m ((c : Thread nD τ).loc main_arg0) from V5_arg0 m c,
    show VE0 m c main_v2 = kwcat (m ((c : Thread nD τ).loc main_arg3)) (m ((c : Thread nD τ).loc main_arg5)) from read_v2 (V0 m c)]

/-- The decoder region's final array is the reference's result term of the same arguments. -/
theorem kernel_value (c : Dev nD) :
    (dat1 (F := Ideal) (VE1 m) c).arrAt 3 cfg1.N
      = Cert.ReferenceIdeal.Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h28 : VE1 m c main_v28 = kzpad (V6 m (outsA m) c main_v3) (V6 m (outsA m) c main_arg1) (V6 m (outsA m) c main_arg2) (V6 m (outsA m) c main_arg4) :=
    read_v28 (V6 m (outsA m) c)
  have h29 : VE1 m c main_v29 = kwdec (V6 m (outsA m) c main_arg6) := read_v29 (V6 m (outsA m) c)
  have h30 : VE1 m c main_v30 = kb2d (V6 m (outsA m) c main_arg7) := read_v30 (V6 m (outsA m) c)
  rw [dec_final (VE1 m) c, h28, h29, h30, enc_value m c, V6_arg1 m c, V6_arg2 m c, V6_arg4 m c, V6_arg6 m c, V6_arg7 m c]
  exact bridge _ _ _ _ _ _ _ _

end Cert.KernelIdeal.HandValue

end
-- ==== Proof.lean ====
/-
  The certificate of the graph-convolution autoencoder kernel against its reference, over the extended reals.

  The kernel program computes hr = x · [pad(W_rel) | pad(W_root)] by a matmul blocked along the contracted axis with
  an accumulator carried over eight steps, takes h = hr[:, 0:200] and root = hr[:, 256:456], aggregates
  z = relu(scatter_add(h[src] · w, dst) + b_rel + root) on the host, and decodes pad(z) · pad(W_dec) + b_dec block by
  block. The reference computes x · W_rel and x · W_root whole, the same aggregation, and z · W_dec + b_dec. On the
  extended reals the two agree entry by entry: a sum over 4096 positions is the sum of its eight consecutive chunks,
  the padded columns and rows contribute 0 · 0 = 0, and the aggregation in the middle is the same function on both
  sides. Only commutativity and associativity of finite sums are used, so the finiteness of the inputs is never opened.

  The three frames: both kernel programs run as fourteen items (host stretches and two kernel regions) whose thread
  states chain from the launch to the end, where every argument buffer is read back at its launch contents; the
  reference's frame is its run with the result dropped. The idealization rewrote nothing, so preserves is trivial.
-/
import proofs.«147354_j1314259992767_1_alg».proof.Defs
import proofs.«147354_j1314259992767_1_alg».proof.Proof.Gen.Kernel
import proofs.«147354_j1314259992767_1_alg».proof.Proof.Gen.KernelIdeal
import proofs.«147354_j1314259992767_1_alg».proof.Proof.Gen.ReferenceIdeal
import proofs.«147354_j1314259992767_1_alg».proof.Proof.Gen.ReferenceIdeal.Run
import proofs.«147354_j1314259992767_1_alg».proof.Proof.Gen.ReferenceIdeal.Read
import proofs.«147354_j1314259992767_1_alg».proof.Proof.Gen.Pre_finite_inputs
import proofs.«147354_j1314259992767_1_alg».proof.Proof.K.Run
import proofs.«147354_j1314259992767_1_alg».proof.Proof.KI.Run
import proofs.«147354_j1314259992767_1_alg».proof.Proof.KernelValue
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same result array: the kernel
    program's is the decoder region's final array, which is the reference's term of the arguments. -/
theorem algebraic : Cert.algebraic_KernelIdeal_ReferenceIdeal := by
  intro m ρ m' ρ' _ hagree
  refine ⟨fun c => (Cert.KernelIdeal.Hand.dat1 (F := Ideal) (Cert.KernelIdeal.Hand.VE1 m) c).arrAt 3 Cert.KernelIdeal.cfg1.N,
    Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.HandValue.kernel_value m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
